-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) (main_arg2 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192 : Shape := ⟨1, ![8192]⟩
abbrev S1024x256 : Shape := ⟨2, ![1024, 256]⟩
abbrev S1024 : Shape := ⟨1, ![1024]⟩
abbrev S1024x1 : Shape := ⟨2, ![1024, 1]⟩
abbrev S8192x1 : Shape := ⟨2, ![8192, 1]⟩
abbrev S1x8192 : Shape := ⟨2, ![1, 8192]⟩
abbrev S1x1024 : Shape := ⟨2, ![1, 1024]⟩
abbrev S1024x1024 : Shape := ⟨2, ![1024, 1024]⟩
abbrev S_ : Shape := ⟨0, ![]⟩

abbrev nBuf : Space → Nat
  | .hbm => 17
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192, .i32⟩
  | .hbm, ⟨3, _⟩ => ⟨S8192x256, .bf16⟩
  | .hbm, ⟨4, _⟩ => ⟨S8192x1, .i32⟩
  | .hbm, ⟨5, _⟩ => ⟨S1x8192, .i32⟩
  | .hbm, ⟨6, _⟩ => ⟨S8192x1, .f32⟩
  | .hbm, ⟨7, _⟩ => ⟨S8192x1, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1024x256, .f32⟩
  | .local _ .vmem, ⟨5, _⟩ => ⟨S1024x256, .f32⟩
  | .local _ .vmem, ⟨6, _⟩ => ⟨S8192x256, .bf16⟩
  | .local _ .vmem, ⟨7, _⟩ => ⟨S1024x1, .i32⟩
  | .local _ .vmem, ⟨8, _⟩ => ⟨S1024x1, .i32⟩
  | .local _ .vmem, ⟨9, _⟩ => ⟨S1x8192, .i32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v13 : BitVec 32 := Scalar.muli arg1 c1024_i32
  v13
def k1_off1 (i : grid1.Coords) : Fin 2 → Nat :=
  let arg1 : BitVec 32 := BitVec.ofNat 32 (i 1).val
  let c1024_i32 : BitVec 32 := 1024#32
  let v13 : BitVec 32 := Scalar.muli arg1 c1024_i32
  let v14 : BitVec 32 := v13
  let v15 : Index := Scalar.indexCast v14
  let c0_3 : Index := 0#32
  ![v15.toNat, 0]
def k1_off2 (i : grid1.Coords) : Fin 2 → Nat :=
  let c0_4 : Index := 0#32
  let arg1 : BitVec 32 := BitVec.ofNat 32 (i 1).val
  let c1024_i32 : BitVec 32 := 1024#32
  let v13 : BitVec 32 := Scalar.muli arg1 c1024_i32
  let v14 : BitVec 32 := v13
  let v18 : Index := Scalar.indexCast v14
  ![0, v18.toNat]
def k1_cond2 (i : grid1.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_20 : BitVec 32 := 0#32
  let v48 : BitVec 1 := Scalar.cmpi .ne v47 c0_i32_20
  v48

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x8192 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x256_S1024x256 : S1024x256.ShapeCasts S1024x256
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S8192x1_S8192 : S8192x1.ShapeCasts S8192
  reducesTo_S8192_S_d0 : S8192.ReducesTo [0] S_
  h_S_ : 0 < S_.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x256.size a ≤ S8192x256.size a
  k1_off2_inb : ∀ i : grid1.Coords, ∀ a, (k1_off2 i) a + S1x1024.size a ≤ S1x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .i32 = 32 ∨ (Rect.block (s := S8192x1) S1024x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x8192.size a
  hwx1_3 : ∀ i : grid1.Coords, EltTy.bits .i32 = 32 ∨ (Rect.block (s := S1x8192) S1x8192.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S8192x1.size a
  hwx1_5 : ∀ i : grid1.Coords, EltTy.bits .f32 = 32 ∨ (Rect.block (s := S8192x1) S1024x1.size (cc1_transform_5 i) (hinb1_5 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S1024x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S1024x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 47
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192, .i32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x256, .f32⟩
  | .hbm, ⟨22, _⟩ => ⟨S8192x256, .f32⟩
  | .hbm, ⟨23, _⟩ => ⟨S256x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x1, .i32⟩
  | .hbm, ⟨30, _⟩ => ⟨S1x8192, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.BRegion0.lean ====
/-
  The first pallas_call: eight grid points, point `t` reads rows 1024·t … 1024·t+1023 of the second argument
  (a 1024×256 block) and writes the same rows of the normalised table: every entry divided by
  max(√(Σ_d x(r,d)²), ε) of its row. Stated for any contents `V` the TensorCore's buffers hold when the
  region is entered, and for any float instance: what the block's staging buffer holds after the body
  (`normedBlock`), the body's triple, the proof data of the pipeline and its body obligation.
-/
import proofs.«160394_j35003983463135_2_alg».proof.Proof.Gen.Kernel.Launch
import proofs.«160394_j35003983463135_2_alg».proof.Proof.Gen.Kernel.Skeleton
import proofs.«160394_j35003983463135_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`: those rows of its array, as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The whole 1024×256 block: the one rectangle the body loads and stores through. -/
abbrev wholeBlock : Rect S1024x256 := Rect.unit (s := S1024x256) ![0, 0] S1024x256.size inb_S1024x256_S1024x256_0_0

/-- What the body leaves in the output's staging buffer: the normalised rows of the input block. -/
def normedBlock (x0 : Vec F S1024x256 .f32) : Vec F S1024x256 .bf16 :=
  View.canon [⟨wholeBlock, k0_pay1 (View.ld x0 wholeBlock)⟩]

/-- The one store covers the buffer. -/
theorem cover_normed (p0 : Vec F S1024x256 .bf16) (y : S1024x256.Idx) :
    ∃ pc ∈ ([⟨wholeBlock, p0⟩] : List (View.Piece (Elt F) S1024x256 .bf16)), y ∈ pc.1.set :=
  View.cover_of_tiled [⟨wholeBlock, p0⟩] S1024x256.size (by rfl) y

set_option maxHeartbeats 1000000 in
/-- The body on whole staging memrefs: the input's kept, the output's at the normalised block. -/
theorem sound_kernel0 (c : Dev nD) (E : Set ℕ) (i : grid0.Coords) (arg1 : Memref sig .tc .vmem S1024x256 .f32) (harg1 : arg1.IsWhole) (arg2 : Memref sig .tc .vmem S1024x256 .bf16) (harg2 : arg2.IsWhole)
    (x0 : Vec F S1024x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (normedBlock x0)) -∗ K ⟨⟩))
      ⊢ wp frame (wpE (defs₀ (F := F)) Variants.none c none) E (cc0__normalize_b_kernel i arg1 harg1 arg2 harg2) K := by
  simp only [cc0__normalize_b_kernel_eq_skeleton]; unfold cc0__normalize_b_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_normed _)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => normedBlock (blk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = normedBlock (blk0 V c 0 t) := by dsimp only [dat0]

theorem before0_0 (c : Dev nD) (t : Fin cfg0.N) (d) : (dat0 V c).before 0 t d = blk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.BRegion1a.lean ====
/-
  The second pallas_call, what its three cases share. The grid is 8 × 8: point t = 8·i + j handles the rows
  1024·i … 1024·i+1023 of the first argument (window 0) and of the label column (window 2) against the columns
  1024·j … 1024·j+1023, cut by the body itself out of the whole normalised table (window 1) and the whole label
  row (window 3). Two scratch buffers carry, per row, the sum over the tiles seen so far of the masked and of
  the plain exponentials; they are reset on the first tile of a row block (j = 0) and copied to the two outputs
  (windows 4 and 5) on its last (j = 7), where alone the outputs are stored and written back.
-/
import proofs.«160394_j35003983463135_2_alg».proof.Proof.Gen.Kernel.Launch
import proofs.«160394_j35003983463135_2_alg».proof.Proof.Gen.Kernel.Skeleton
import proofs.«160394_j35003983463135_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

end

/-- The body's first branch: the tile is the first of its row block (j = 0). -/
abbrev firstTile (i : grid1.Coords) : Prop := (Scalar.cmpi .ne (Scalar.extui (Scalar.cmpi .eq (BitVec.ofNat 32 (i 1).val) 0#32)) 0#32) = 1#1
theorem firstTile_iff : ∀ t : Fin cfg1.N, firstTile (grid1.coords t) ↔ t.val % 8 = 0 :=
  (by decide +kernel : ∀ t : Fin grid1.N, firstTile (grid1.coords t) ↔ t.val % 8 = 0)

/-- The body's second branch: the tile is the last of its row block (j = 7). -/
abbrev lastTile (i : grid1.Coords) : Prop := k1_cond2 i = 1#1
theorem lastTile_iff : ∀ t : Fin cfg1.N, lastTile (grid1.coords t) ↔ t.val % 8 = 7 :=
  (by decide +kernel : ∀ t : Fin grid1.N, lastTile (grid1.coords t) ↔ t.val % 8 = 7)

/-- The inputs are never idle; the two outputs are idle, and not written back, off the last tile. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem idle1_4 : ∀ t : Fin cfg1.N, ¬lastTile (grid1.coords t) → cfg1.idle 4 (grid1.coords t) = true := by decide +kernel
theorem idle1_5 : ∀ t : Fin cfg1.N, ¬lastTile (grid1.coords t) → cfg1.idle 5 (grid1.coords t) = true := by decide +kernel
theorem noFlush1_4 : ∀ t : Fin cfg1.N, ¬lastTile (grid1.coords t) → (cfg1.win 4).flush t = false := by decide +kernel
theorem noFlush1_5 : ∀ t : Fin cfg1.N, ¬lastTile (grid1.coords t) → (cfg1.win 5).flush t = false := by decide +kernel
theorem live1_4 : ∀ t : Fin cfg1.N, lastTile (grid1.coords t) → cfg1.idle 4 (grid1.coords t) = false := by decide +kernel
theorem live1_5 : ∀ t : Fin cfg1.N, lastTile (grid1.coords t) → cfg1.idle 5 (grid1.coords t) = false := by decide +kernel

/-- Each window's current staging memref at point `t`, as the pipeline passes it, and its wholeness. -/
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8192 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
/-- The two accumulators: whole scoped buffers of the kernel's own. -/
abbrev accPos : Memref sig .tc .vmem S1024x1 .f32 := Memref.whole cc1_scratch0
abbrev accAll : Memref sig .tc .vmem S1024x1 .f32 := Memref.whole cc1_scratch1
/-- Views through which the outputs' and the accumulators' contents are stated. -/
abbrev VO4 : View sig .tc .vmem S1024x1 .f32 := (Memref.whole cc1_stg4_0 : Memref sig .tc .vmem S1024x1 .f32).view
abbrev VO5 : View sig .tc .vmem S1024x1 .f32 := (Memref.whole cc1_stg5_0 : Memref sig .tc .vmem S1024x1 .f32).view
abbrev VSP : View sig .tc .vmem S1024x1 .f32 := accPos.view
abbrev VSA : View sig .tc .vmem S1024x1 .f32 := accAll.view

/-- The first pipeline's four staging buffers, each whole at some contents: scoped buffers this kernel never touches. -/
def idleStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- The class invariant of this pipeline, spelt out: those four buffers, the two accumulators at some contents,
    the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) accPos fullShare d) ∗ (∃ d, owns (c : Thread nD τ) accAll fullShare d)) ∗ (∃ r, prngReg c r)) := by
  unfold Pipeline.ΦA; rw [scopedRest1_eq]; simp only [accPos, accAll, owns_whole]; try rfl

end Cert.Kernel.Hand

end
-- ==== Proof.BRuns1.lean ====
/-
  The body of the second pallas_call run on whole staging memrefs, one run per case of its two branches
  (first tile of a row block / a middle tile / last tile): which buffers it needs at known contents, which it
  hands back untouched, and the pieces its stores leave in the accumulators and, on the last tile, in the outputs.
-/
import proofs.«160394_j35003983463135_2_alg».proof.Proof.BRegion1a

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The first tile of a row block: both accumulators, at whatever they held, are reset to zero, read back and
    stored once more; the outputs are not touched. -/
noncomputable def runFirst (c : Dev nD) (i : grid1.Coords) (arg2 : Memref sig .tc .vmem S1024x256 .f32) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc1 : firstTile i) (hc2 : ¬lastTile i)
    (xa : Vec F S1024x256 .f32) (xb : Vec F S8192x256 .bf16) (xr : Vec F S1024x1 .i32) (xc : Vec F S1x8192 .i32) :
    Σ' (LP : List (View.Piece (Elt F) S1024x1 .f32)), { LA : List (View.Piece (Elt F) S1024x1 .f32) //
      ∀ (o4 o5 : Vec F S1024x1 .f32) (E : Set ℕ) (K : PUnit → sProp 𝕄),
        iprop(owns (c : Thread nD τ) arg2 fullShare xa ∗ owns (c : Thread nD τ) arg3 fullShare xb ∗ owns (c : Thread nD τ) arg4 fullShare xr ∗ owns (c : Thread nD τ) arg5 fullShare xc ∗ owns (c : Thread nD τ) arg6 fullShare o4 ∗ owns (c : Thread nD τ) arg7 fullShare o5 ∗ (∃ d, owns (c : Thread nD τ) arg8 fullShare d) ∗ (∃ d, owns (c : Thread nD τ) arg9 fullShare d)
            ∗ (iprop(owns (c : Thread nD τ) arg2 fullShare xa ∗ owns (c : Thread nD τ) arg3 fullShare xb ∗ owns (c : Thread nD τ) arg4 fullShare xr ∗ owns (c : Thread nD τ) arg5 fullShare xc ∗ owns (c : Thread nD τ) arg6 fullShare o4 ∗ owns (c : Thread nD τ) arg7 fullShare o5 ∗ (∃ f, arg8.view.loc (c : Thread nD τ) ↦[arg8.view.set]{fullShare} arg8.view.writes (Elt F) f LP) ∗ (∃ f, arg9.view.loc (c : Thread nD τ) ↦[arg9.view.set]{fullShare} arg9.view.writes (Elt F) f LA)) -∗ K ⟨⟩))
          ⊢ wp frame (wpE (defs₀ (F := F)) Variants.none c none) E (cc1__pairwise_kernel i arg2 harg2 arg3 harg3 arg4 harg4 arg5 harg5 arg6 harg6 arg7 harg7 arg8 harg8 arg9 harg9) K } := by
  refine ⟨?_, ?_, fun o4 o5 E K => ?run⟩
  case run =>
    simp only [cc1__pairwise_kernel_eq_skeleton]; unfold cc1__pairwise_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7
    sl_exec (disch := first | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    iexists _; iexact H9

set_option maxHeartbeats 2000000 in
/-- A middle tile (neither first nor last of its row block): both accumulators are read at what the tile before
    left and stored once; the outputs are not touched. The pieces each accumulator ends with are found by the run. -/
noncomputable def runMid (c : Dev nD) (i : grid1.Coords) (arg2 : Memref sig .tc .vmem S1024x256 .f32) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc1 : ¬firstTile i) (hc2 : ¬lastTile i)
    (xa : Vec F S1024x256 .f32) (xb : Vec F S8192x256 .bf16) (xr : Vec F S1024x1 .i32) (xc : Vec F S1x8192 .i32) (s0 s1 : Vec F S1024x1 .f32) :
    Σ' (LP : List (View.Piece (Elt F) S1024x1 .f32)), { LA : List (View.Piece (Elt F) S1024x1 .f32) //
      ∀ (o4 o5 : Vec F S1024x1 .f32) (E : Set ℕ) (K : PUnit → sProp 𝕄),
        iprop(owns (c : Thread nD τ) arg2 fullShare xa ∗ owns (c : Thread nD τ) arg3 fullShare xb ∗ owns (c : Thread nD τ) arg4 fullShare xr ∗ owns (c : Thread nD τ) arg5 fullShare xc ∗ owns (c : Thread nD τ) arg6 fullShare o4 ∗ owns (c : Thread nD τ) arg7 fullShare o5 ∗ owns (c : Thread nD τ) arg8 fullShare s0 ∗ owns (c : Thread nD τ) arg9 fullShare s1
            ∗ (iprop(owns (c : Thread nD τ) arg2 fullShare xa ∗ owns (c : Thread nD τ) arg3 fullShare xb ∗ owns (c : Thread nD τ) arg4 fullShare xr ∗ owns (c : Thread nD τ) arg5 fullShare xc ∗ owns (c : Thread nD τ) arg6 fullShare o4 ∗ owns (c : Thread nD τ) arg7 fullShare o5 ∗ (∃ f, arg8.view.loc (c : Thread nD τ) ↦[arg8.view.set]{fullShare} arg8.view.writes (Elt F) f LP) ∗ (∃ f, arg9.view.loc (c : Thread nD τ) ↦[arg9.view.set]{fullShare} arg9.view.writes (Elt F) f LA)) -∗ K ⟨⟩))
          ⊢ wp frame (wpE (defs₀ (F := F)) Variants.none c none) E (cc1__pairwise_kernel i arg2 harg2 arg3 harg3 arg4 harg4 arg5 harg5 arg6 harg6 arg7 harg7 arg8 harg8 arg9 harg9) K } := by
  refine ⟨?_, ?_, fun o4 o5 E K => ?run⟩
  case run =>
    simp only [cc1__pairwise_kernel_eq_skeleton]; unfold cc1__pairwise_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    sl_exec (disch := first | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    iexists _; iexact H9

set_option maxHeartbeats 2000000 in
/-- The last tile of a row block: both accumulators are read at what the tile before left, stored once, read
    back and copied into the two outputs, which are at anything before. -/
noncomputable def runLast (c : Dev nD) (i : grid1.Coords) (arg2 : Memref sig .tc .vmem S1024x256 .f32) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc1 : ¬firstTile i) (hc2 : lastTile i)
    (xa : Vec F S1024x256 .f32) (xb : Vec F S8192x256 .bf16) (xr : Vec F S1024x1 .i32) (xc : Vec F S1x8192 .i32) (s0 s1 : Vec F S1024x1 .f32) :
    Σ' (L4 : List (View.Piece (Elt F) S1024x1 .f32)) (L5 : List (View.Piece (Elt F) S1024x1 .f32)) (LP : List (View.Piece (Elt F) S1024x1 .f32)), { LA : List (View.Piece (Elt F) S1024x1 .f32) //
      ∀ (E : Set ℕ) (K : PUnit → sProp 𝕄),
        iprop(owns (c : Thread nD τ) arg2 fullShare xa ∗ owns (c : Thread nD τ) arg3 fullShare xb ∗ owns (c : Thread nD τ) arg4 fullShare xr ∗ owns (c : Thread nD τ) arg5 fullShare xc ∗ (∃ d, owns (c : Thread nD τ) arg6 fullShare d) ∗ (∃ d, owns (c : Thread nD τ) arg7 fullShare d) ∗ owns (c : Thread nD τ) arg8 fullShare s0 ∗ owns (c : Thread nD τ) arg9 fullShare s1
            ∗ (iprop(owns (c : Thread nD τ) arg2 fullShare xa ∗ owns (c : Thread nD τ) arg3 fullShare xb ∗ owns (c : Thread nD τ) arg4 fullShare xr ∗ owns (c : Thread nD τ) arg5 fullShare xc ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LP) ∗ (∃ f, arg9.view.loc (c : Thread nD τ) ↦[arg9.view.set]{fullShare} arg9.view.writes (Elt F) f LA)) -∗ K ⟨⟩))
          ⊢ wp frame (wpE (defs₀ (F := F)) Variants.none c none) E (cc1__pairwise_kernel i arg2 harg2 arg3 harg3 arg4 harg4 arg5 harg5 arg6 harg6 arg7 harg7 arg8 harg8 arg9 harg9) K } := by
  refine ⟨?_, ?_, ?_, ?_, fun E K => ?run⟩
  case run =>
    simp only [cc1__pairwise_kernel_eq_skeleton]; unfold cc1__pairwise_kernel_skel
    simp only [k1_part1_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5
    obtain rfl := harg8.eq_unread hf8; obtain rfl := harg9.eq_unread hf9
    sl_exec (disch := first | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; iexact H7
    isplitl [H8]
    · iexists _; iexact H8
    iexists _; iexact H9

end Cert.Kernel.Hand

end
-- ==== Proof.BRegion1.lean ====
/-
  The second pallas_call, assembled: what each of the three cases leaves in the two accumulators (and, on a last
  tile, in the two outputs), the accumulation point by point over the 64 grid points, the region's invariant — after
  point n both accumulators hold what point n left —, the pipeline's proof data and its body obligation.
-/
import proofs.«160394_j35003983463135_2_alg».proof.Proof.BRuns1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case leaves -/

/-- A buffer's contents nobody reads: what an output's staging buffer is said to hold at a point where the body does
    not store into it and the pipeline does not write it back. -/
def unread4 : Vec F S1024x1 .f32 := VO4.read (Elt F) (VO4.writes (Elt F) VO4.junk [])
def unread5 : Vec F S1024x1 .f32 := VO5.read (Elt F) (VO5.writes (Elt F) VO5.junk [])

theorem coverP_first (c : Dev nD) (t : Fin cfg1.N) (h0 : t.val % 8 = 0) (y : S1024x1.Idx) :
    ∃ pc ∈ (runFirst c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) ((firstTile_iff t).mpr h0) (fun h => absurd ((lastTile_iff t).mp h) (by omega)) (blk1 V c 0 t) (blk1 V c 1 t) (blk1 V c 2 t) (blk1 V c 3 t)).1, y ∈ pc.1.set :=
  View.cover_of_tiledL (runFirst c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) ((firstTile_iff t).mpr h0) (fun h => absurd ((lastTile_iff t).mp h) (by omega)) (blk1 V c 0 t) (blk1 V c 1 t) (blk1 V c 2 t) (blk1 V c 3 t)).1 S1024x1.size (by sl_kernel_rfl) y
theorem coverA_first (c : Dev nD) (t : Fin cfg1.N) (h0 : t.val % 8 = 0) (y : S1024x1.Idx) :
    ∃ pc ∈ (runFirst c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) ((firstTile_iff t).mpr h0) (fun h => absurd ((lastTile_iff t).mp h) (by omega)) (blk1 V c 0 t) (blk1 V c 1 t) (blk1 V c 2 t) (blk1 V c 3 t)).2.1, y ∈ pc.1.set :=
  View.cover_of_tiledL (runFirst c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) ((firstTile_iff t).mpr h0) (fun h => absurd ((lastTile_iff t).mp h) (by omega)) (blk1 V c 0 t) (blk1 V c 1 t) (blk1 V c 2 t) (blk1 V c 3 t)).2.1 S1024x1.size (by sl_kernel_rfl) y
/-- The accumulators after a first tile. -/
def accP_first (c : Dev nD) (t : Fin cfg1.N) (h0 : t.val % 8 = 0) : Vec F S1024x1 .f32 :=
  VSP.read (Elt F) (VSP.writes (Elt F) VSP.junk (runFirst c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) ((firstTile_iff t).mpr h0) (fun h => absurd ((lastTile_iff t).mp h) (by omega)) (blk1 V c 0 t) (blk1 V c 1 t) (blk1 V c 2 t) (blk1 V c 3 t)).1)
def accA_first (c : Dev nD) (t : Fin cfg1.N) (h0 : t.val % 8 = 0) : Vec F S1024x1 .f32 :=
  VSA.read (Elt F) (VSA.writes (Elt F) VSA.junk (runFirst c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) ((firstTile_iff t).mpr h0) (fun h => absurd ((lastTile_iff t).mp h) (by omega)) (blk1 V c 0 t) (blk1 V c 1 t) (blk1 V c 2 t) (blk1 V c 3 t)).2.1)

theorem coverP_mid (c : Dev nD) (t : Fin cfg1.N) (h0 : ¬t.val % 8 = 0) (h1 : ¬t.val % 8 = 7) (p0 p1 : Vec F S1024x1 .f32) (y : S1024x1.Idx) :
    ∃ pc ∈ (runMid c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) (fun h => h1 ((lastTile_iff t).mp h)) (blk1 V c 0 t) (blk1 V c 1 t) (blk1 V c 2 t) (blk1 V c 3 t) p0 p1).1, y ∈ pc.1.set :=
  View.cover_of_tiledL (runMid c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) (fun h => h1 ((lastTile_iff t).mp h)) (blk1 V c 0 t) (blk1 V c 1 t) (blk1 V c 2 t) (blk1 V c 3 t) p0 p1).1 S1024x1.size (by sl_kernel_rfl) y
theorem coverA_mid (c : Dev nD) (t : Fin cfg1.N) (h0 : ¬t.val % 8 = 0) (h1 : ¬t.val % 8 = 7) (p0 p1 : Vec F S1024x1 .f32) (y : S1024x1.Idx) :
    ∃ pc ∈ (runMid c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) (fun h => h1 ((lastTile_iff t).mp h)) (blk1 V c 0 t) (blk1 V c 1 t) (blk1 V c 2 t) (blk1 V c 3 t) p0 p1).2.1, y ∈ pc.1.set :=
  View.cover_of_tiledL (runMid c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) (fun h => h1 ((lastTile_iff t).mp h)) (blk1 V c 0 t) (blk1 V c 1 t) (blk1 V c 2 t) (blk1 V c 3 t) p0 p1).2.1 S1024x1.size (by sl_kernel_rfl) y
/-- The accumulators after a middle tile, from what the tile before left (`p0`, `p1`). -/
def accP_mid (c : Dev nD) (t : Fin cfg1.N) (h0 : ¬t.val % 8 = 0) (h1 : ¬t.val % 8 = 7) (p0 p1 : Vec F S1024x1 .f32) : Vec F S1024x1 .f32 :=
  VSP.read (Elt F) (VSP.writes (Elt F) VSP.junk (runMid c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) (fun h => h1 ((lastTile_iff t).mp h)) (blk1 V c 0 t) (blk1 V c 1 t) (blk1 V c 2 t) (blk1 V c 3 t) p0 p1).1)
def accA_mid (c : Dev nD) (t : Fin cfg1.N) (h0 : ¬t.val % 8 = 0) (h1 : ¬t.val % 8 = 7) (p0 p1 : Vec F S1024x1 .f32) : Vec F S1024x1 .f32 :=
  VSA.read (Elt F) (VSA.writes (Elt F) VSA.junk (runMid c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) (fun h => h1 ((lastTile_iff t).mp h)) (blk1 V c 0 t) (blk1 V c 1 t) (blk1 V c 2 t) (blk1 V c 3 t) p0 p1).2.1)

theorem cover4_last (c : Dev nD) (t : Fin cfg1.N) (h0 : ¬t.val % 8 = 0) (h1 : t.val % 8 = 7) (p0 p1 : Vec F S1024x1 .f32) (y : S1024x1.Idx) :
    ∃ pc ∈ (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).1, y ∈ pc.1.set :=
  View.cover_of_tiledL (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).1 S1024x1.size (by sl_kernel_rfl) y
theorem cover5_last (c : Dev nD) (t : Fin cfg1.N) (h0 : ¬t.val % 8 = 0) (h1 : t.val % 8 = 7) (p0 p1 : Vec F S1024x1 .f32) (y : S1024x1.Idx) :
    ∃ pc ∈ (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).2.1, y ∈ pc.1.set :=
  View.cover_of_tiledL (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).2.1 S1024x1.size (by sl_kernel_rfl) y
theorem coverP_last (c : Dev nD) (t : Fin cfg1.N) (h0 : ¬t.val % 8 = 0) (h1 : t.val % 8 = 7) (p0 p1 : Vec F S1024x1 .f32) (y : S1024x1.Idx) :
    ∃ pc ∈ (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).2.2.1, y ∈ pc.1.set :=
  View.cover_of_tiledL (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).2.2.1 S1024x1.size (by sl_kernel_rfl) y
theorem coverA_last (c : Dev nD) (t : Fin cfg1.N) (h0 : ¬t.val % 8 = 0) (h1 : t.val % 8 = 7) (p0 p1 : Vec F S1024x1 .f32) (y : S1024x1.Idx) :
    ∃ pc ∈ (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).2.2.2.1, y ∈ pc.1.set :=
  View.cover_of_tiledL (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).2.2.2.1 S1024x1.size (by sl_kernel_rfl) y
/-- The outputs and the accumulators after a last tile. -/
def out4_last (c : Dev nD) (t : Fin cfg1.N) (h0 : ¬t.val % 8 = 0) (h1 : t.val % 8 = 7) (p0 p1 : Vec F S1024x1 .f32) : Vec F S1024x1 .f32 :=
  VO4.read (Elt F) (VO4.writes (Elt F) VO4.junk (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).1)
def out5_last (c : Dev nD) (t : Fin cfg1.N) (h0 : ¬t.val % 8 = 0) (h1 : t.val % 8 = 7) (p0 p1 : Vec F S1024x1 .f32) : Vec F S1024x1 .f32 :=
  VO5.read (Elt F) (VO5.writes (Elt F) VO5.junk (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).2.1)
def accP_last (c : Dev nD) (t : Fin cfg1.N) (h0 : ¬t.val % 8 = 0) (h1 : t.val % 8 = 7) (p0 p1 : Vec F S1024x1 .f32) : Vec F S1024x1 .f32 :=
  VSP.read (Elt F) (VSP.writes (Elt F) VSP.junk (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).2.2.1)
def accA_last (c : Dev nD) (t : Fin cfg1.N) (h0 : ¬t.val % 8 = 0) (h1 : t.val % 8 = 7) (p0 p1 : Vec F S1024x1 .f32) : Vec F S1024x1 .f32 :=
  VSA.read (Elt F) (VSA.writes (Elt F) VSA.junk (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).2.2.2.1)

/-! ## The accumulation -/

/-- One point: the two outputs' staging buffers and the two accumulators after the body at `t`, from what the point
    before left in the accumulators (`p0`, `p1`; not consulted on a first tile). -/
def tileStep (c : Dev nD) (t : Fin cfg1.N) (p0 p1 : Vec F S1024x1 .f32) : Vec F S1024x1 .f32 × Vec F S1024x1 .f32 × Vec F S1024x1 .f32 × Vec F S1024x1 .f32 :=
  if h0 : t.val % 8 = 0 then
    (unread4, unread5, accP_first V c t h0, accA_first V c t h0)
  else if h1 : t.val % 8 = 7 then
    (out4_last V c t h0 h1 p0 p1, out5_last V c t h0 h1 p0 p1, accP_last V c t h0 h1 p0 p1, accA_last V c t h0 h1 p0 p1)
  else
    (unread4, unread5, accP_mid V c t h0 h1 p0 p1, accA_mid V c t h0 h1 p0 p1)

/-- After position `n`: by recursion on the position, each point fed what the one before left. -/
def outsAt1 (c : Dev nD) : (n : ℕ) → n < cfg1.N → Vec F S1024x1 .f32 × Vec F S1024x1 .f32 × Vec F S1024x1 .f32 × Vec F S1024x1 .f32
  | 0, hn => tileStep V c ⟨0, hn⟩ unread4 unread5
  | n + 1, hn => tileStep V c ⟨n + 1, hn⟩ (outsAt1 c n (Nat.lt_of_succ_lt hn)).2.2.1 (outsAt1 c n (Nat.lt_of_succ_lt hn)).2.2.2

theorem outsAt1_pos (c : Dev nD) (t : Fin cfg1.N) (hz : t.val ≠ 0) :
    outsAt1 V c t.val t.isLt = tileStep V c t (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd rfl hz
  | succ n => rfl

theorem tileStep_first (c : Dev nD) (t : Fin cfg1.N) (p0 p1 : Vec F S1024x1 .f32) (h0 : t.val % 8 = 0) :
    tileStep V c t p0 p1 = (unread4, unread5, accP_first V c t h0, accA_first V c t h0) := dif_pos h0
theorem tileStep_last (c : Dev nD) (t : Fin cfg1.N) (p0 p1 : Vec F S1024x1 .f32) (h0 : ¬t.val % 8 = 0) (h1 : t.val % 8 = 7) :
    tileStep V c t p0 p1 = (out4_last V c t h0 h1 p0 p1, out5_last V c t h0 h1 p0 p1, accP_last V c t h0 h1 p0 p1, accA_last V c t h0 h1 p0 p1) :=
  (dif_neg h0).trans (dif_pos h1)
theorem tileStep_mid (c : Dev nD) (t : Fin cfg1.N) (p0 p1 : Vec F S1024x1 .f32) (h0 : ¬t.val % 8 = 0) (h1 : ¬t.val % 8 = 7) :
    tileStep V c t p0 p1 = (unread4, unread5, accP_mid V c t h0 h1 p0 p1, accA_mid V c t h0 h1 p0 p1) :=
  (dif_neg h0).trans (dif_neg h1)

/-- At a first tile nothing of the point before is consulted. -/
theorem outsAt1_first (c : Dev nD) (t : Fin cfg1.N) (h0 : t.val % 8 = 0) :
    outsAt1 V c t.val t.isLt = (unread4, unread5, accP_first V c t h0, accA_first V c t h0) := by
  obtain ⟨n, hn⟩ := t
  cases n with
  | zero => exact tileStep_first V c _ _ _ h0
  | succ n => exact tileStep_first V c _ _ _ h0

/-! ## The invariant -/

/-- Before position `n`: at the start the class's invariant (both accumulators at anything); afterwards the first
    pipeline's staging buffers at anything, each accumulator at what the point before left, the generator register. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) accPos fullShare (outsAt1 V c n hn).2.2.1 ∗ owns (c : Thread nD τ) accAll fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) accPos fullShare (outsAt1 V c n hn).2.2.1 ∗ owns (c : Thread nD τ) accAll fullShare (outsAt1 V c n hn).2.2.2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) accPos fullShare (outsAt1 V c (n - 1) (by omega)).2.2.1 ∗ owns (c : Thread nD τ) accAll fullShare (outsAt1 V c (n - 1) (by omega)).2.2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => (outsAt1 V c t.val t.isLt).1
    | ⟨5, _⟩ => (outsAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d

end

section
variable (V : (c : Dev nD) → (b : Ref sig .tc) → Buf (Elt F) ((c : Thread nD τ).loc b))

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 6400000 in
/-- The body at any point: the inputs' memrefs hold their blocks; the point's position in its row block says which
    case it is; the invariant hands the run both accumulators — at anything before the very first point, at what the
    point before left afterwards — and takes them back at this point's contents; the outputs' buffers pass through
    untouched off a last tile and are stored whole on one. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  by_cases h0 : t.val % 8 = 0
  · have hnl : ¬lastTile (grid1.coords t) := fun h => absurd ((lastTile_iff t).mp h) (by omega)
    rw [Dat.leavesExact_idle (dat1 V c) 4 t (idle1_4 t hnl) (noFlush1_4 t hnl),
      Dat.leavesExact_idle (dat1 V c) 5 t (idle1_5 t hnl) (noFlush1_5 t hnl)]
    rw [outsAt1_first V c t h0]
    unfold accP_first accA_first; (try dsimp only)
    by_cases hz : t.val = 0
    · rw [PhiS_castSucc V c t, PhiS_zero V c _ _ hz, PhiA1_eq]
      iintro ⟨⟨⟨HA, HB, HC, HD, HS0, HS1⟩, Hg⟩, Ho, ⟨%d0, H0⟩, ⟨%d1, H1⟩, ⟨%d2, H2⟩, ⟨%d3, H3⟩, ⟨%d4, H4⟩, ⟨%d5, H5⟩⟩
      iapply ((runFirst c (grid1.coords t) _ _ _ _ _ _ _ _ _ _ _ _ _ _ _ _ ((firstTile_iff t).mpr h0) hnl (blk1 V c 0 t) (blk1 V c 1 t) (blk1 V c 2 t) (blk1 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HA HB HC HD HS0 HS1 Hg]
      · isplitl [HA HB HC HD HS0 HS1]
        · isplitl [HA]; · iexact HA
          isplitl [HB]; · iexact HB
          isplitl [HC]; · iexact HC
          isplitl [HD]; · iexact HD
          isplitl [HS0]
          · unfold owns; iexists _; isplitr
            swap; · iexact HS0
            ipureintro; exact View.read_writes_of_cover _ _ _ _ _ (coverP_first V c t h0)
          unfold owns; iexists _; isplitr
          swap; · iexact HS1
          ipureintro; exact View.read_writes_of_cover _ _ _ _ _ (coverA_first V c t h0)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc V c t, PhiS_pos V c _ _ hz]
      iintro ⟨⟨⟨HA, HB, HC, HD, HS0, HS1⟩, Hg⟩, Ho, ⟨%d0, H0⟩, ⟨%d1, H1⟩, ⟨%d2, H2⟩, ⟨%d3, H3⟩, ⟨%d4, H4⟩, ⟨%d5, H5⟩⟩
      iapply ((runFirst c (grid1.coords t) _ _ _ _ _ _ _ _ _ _ _ _ _ _ _ _ ((firstTile_iff t).mpr h0) hnl (blk1 V c 0 t) (blk1 V c 1 t) (blk1 V c 2 t) (blk1 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HA HB HC HD HS0 HS1 Hg]
      · isplitl [HA HB HC HD HS0 HS1]
        · isplitl [HA]; · iexact HA
          isplitl [HB]; · iexact HB
          isplitl [HC]; · iexact HC
          isplitl [HD]; · iexact HD
          isplitl [HS0]
          · unfold owns; iexists _; isplitr
            swap; · iexact HS0
            ipureintro; exact View.read_writes_of_cover _ _ _ _ _ (coverP_first V c t h0)
          unfold owns; iexists _; isplitr
          swap; · iexact HS1
          ipureintro; exact View.read_writes_of_cover _ _ _ _ _ (coverA_first V c t h0)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hnf : ¬firstTile (grid1.coords t) := fun h => h0 ((firstTile_iff t).mp h)
    have hz : t.val ≠ 0 := fun h => h0 (by rw [h])
    by_cases h1 : t.val % 8 = 7
    · have hl : lastTile (grid1.coords t) := (lastTile_iff t).mpr h1
      rw [show (dat1 V c).leavesExact 4 t = owns (c : Thread nD τ) (ms1_4 t) fullShare ((dat1 V c).after 4 t) from by
        unfold Dat.leavesExact; rw [live1_4 t hl], after1_4]
      rw [show (dat1 V c).leavesExact 5 t = owns (c : Thread nD τ) (ms1_5 t) fullShare ((dat1 V c).after 5 t) from by
        unfold Dat.leavesExact; rw [live1_5 t hl], after1_5]
      rw [outsAt1_pos V c t hz, tileStep_last V c t _ _ h0 h1]
      unfold out4_last out5_last accP_last accA_last; (try dsimp only)
      rw [PhiS_castSucc V c t, PhiS_pos V c _ _ hz]
      iintro ⟨⟨⟨HA, HB, HC, HD, HS0, HS1⟩, Hg⟩, Ho, ⟨%d0, H0⟩, ⟨%d1, H1⟩, ⟨%d2, H2⟩, ⟨%d3, H3⟩, ⟨%d4, H4⟩, ⟨%d5, H5⟩⟩
      iapply ((runLast c (grid1.coords t) _ _ _ _ _ _ _ _ _ _ _ _ _ _ _ _ hnf hl (blk1 V c 0 t) (blk1 V c 1 t) (blk1 V c 2 t) (blk1 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HA HB HC HD HS0 HS1 Hg]
      · isplitl [HA HB HC HD HS0 HS1]
        · isplitl [HA]; · iexact HA
          isplitl [HB]; · iexact HB
          isplitl [HC]; · iexact HC
          isplitl [HD]; · iexact HD
          isplitl [HS0]
          · unfold owns; iexists _; isplitr
            swap; · iexact HS0
            ipureintro; exact View.read_writes_of_cover _ _ _ _ _ (coverP_last V c t h0 h1 _ _)
          unfold owns; iexists _; isplitr
          swap; · iexact HS1
          ipureintro; exact View.read_writes_of_cover _ _ _ _ _ (coverA_last V c t h0 h1 _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_last V c t h0 h1 _ _)
      unfold owns; iexists _; isplitr
      swap; · iexact H5
      ipureintro; exact View.read_writes_of_cover _ _ _ _ _ (cover5_last V c t h0 h1 _ _)
    · have hnl : ¬lastTile (grid1.coords t) := fun h => h1 ((lastTile_iff t).mp h)
      rw [Dat.leavesExact_idle (dat1 V c) 4 t (idle1_4 t hnl) (noFlush1_4 t hnl),
        Dat.leavesExact_idle (dat1 V c) 5 t (idle1_5 t hnl) (noFlush1_5 t hnl)]
      rw [outsAt1_pos V c t hz, tileStep_mid V c t _ _ h0 h1]
      unfold accP_mid accA_mid; (try dsimp only)
      rw [PhiS_castSucc V c t, PhiS_pos V c _ _ hz]
      iintro ⟨⟨⟨HA, HB, HC, HD, HS0, HS1⟩, Hg⟩, Ho, ⟨%d0, H0⟩, ⟨%d1, H1⟩, ⟨%d2, H2⟩, ⟨%d3, H3⟩, ⟨%d4, H4⟩, ⟨%d5, H5⟩⟩
      iapply ((runMid c (grid1.coords t) _ _ _ _ _ _ _ _ _ _ _ _ _ _ _ _ hnf hnl (blk1 V c 0 t) (blk1 V c 1 t) (blk1 V c 2 t) (blk1 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HA HB HC HD HS0 HS1 Hg]
      · isplitl [HA HB HC HD HS0 HS1]
        · isplitl [HA]; · iexact HA
          isplitl [HB]; · iexact HB
          isplitl [HC]; · iexact HC
          isplitl [HD]; · iexact HD
          isplitl [HS0]
          · unfold owns; iexists _; isplitr
            swap; · iexact HS0
            ipureintro; exact View.read_writes_of_cover _ _ _ _ _ (coverP_mid V c t h0 h1 _ _)
          unfold owns; iexists _; isplitr
          swap; · iexact HS1
          ipureintro; exact View.read_writes_of_cover _ _ _ _ _ (coverA_mid V c t h0 h1 _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: what the accumulators hold is forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨HA, HB, HC, HD, HS0, HS1⟩, Hg⟩
  isplitl [HA HB HC HD HS0 HS1]
  · isplitl [HA]; · iexact HA
    isplitl [HB]; · iexact HB
    isplitl [HC]; · iexact HC
    isplitl [HD]; · iexact HD
    isplitl [HS0]; · iexists _; iexact HS0
    iexists _; iexact HS1
  iexact Hg

end

end Cert.Kernel.Hand

end
-- ==== Proof.BFold.lean ====
/-
  The contents of the TensorCore's buffers at each boundary of @main, as a fold from the launch memory: after the
  first pallas_call (its output array at what its write-backs leave), after the two reshapes of the labels, after the
  second pallas_call, after the nine closing host operations; and each argument array read back through the fold to
  its launch contents (no host operation and no region writes one).
-/
import proofs.«160394_j35003983463135_2_alg».proof.Proof.BRegion0
import proofs.«160394_j35003983463135_2_alg».proof.Proof.BRegion1
import proofs.«160394_j35003983463135_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch (where the first region is entered). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two reshapes of the labels (where the second region is entered). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the nine closing host operations: the contents at the return. -/
abbrev W4 : Dev nD → Valuation τ sig (Elt F) := fun c => StableHlo.after hostOps2 (W3 m ρ c)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (r := main_arg0) (by decide)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := StableHlo.after_of_writes_sub hostOps1 _ hostOps1_writes (r := main_arg0) (by decide)
    _ = W0 m ρ c (Proc.devRef .tc main_arg0) := W1_of_ne m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (r := main_arg1) (by decide)
    _ = W2 m ρ c (Proc.devRef .tc main_arg1) := W3_of_ne m ρ c main_arg1 (by decide)
    _ = W1 m ρ c (Proc.devRef .tc main_arg1) := StableHlo.after_of_writes_sub hostOps1 _ hostOps1_writes (r := main_arg1) (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (r := main_arg2) (by decide)
    _ = W2 m ρ c (Proc.devRef .tc main_arg2) := W3_of_ne m ρ c main_arg2 (by decide)
    _ = W1 m ρ c (Proc.devRef .tc main_arg2) := StableHlo.after_of_writes_sub hostOps1 _ hostOps1_writes (r := main_arg2) (by decide)
    _ = W0 m ρ c (Proc.devRef .tc main_arg2) := W1_of_ne m ρ c main_arg2 (by decide)
    _ = m ((c : Thread nD τ).loc main_arg2) := rfl

end Cert.Kernel.Hand

end
-- ==== Proof.BRun.lean ====
/-
  @main from the launch to the return: each region a segment around its pipeline's proof data, each host stretch a
  segment over its operations; the run ends with every unscoped buffer at the last valuation of the fold, from which
  the claims read the result and the arguments.
-/
import proofs.«160394_j35003983463135_2_alg».proof.Proof.BFold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    have h := hout1 (F := F) (V2 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped buffer at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_main m ρ)

end Cert.Kernel.Hand

end
-- ==== Proof.IRegion0.lean ====
/-
  The first pallas_call: eight grid points, point `t` reads rows 1024·t … 1024·t+1023 of the second argument
  (a 1024×256 block) and writes the same rows of the normalised table: every entry divided by
  max(√(Σ_d x(r,d)²), ε) of its row. Stated for any contents `V` the TensorCore's buffers hold when the
  region is entered, and for any float instance: what the block's staging buffer holds after the body
  (`normedBlock`), the body's triple, the proof data of the pipeline and its body obligation.
-/
import proofs.«160394_j35003983463135_2_alg».proof.Proof.Gen.KernelIdeal.Launch
import proofs.«160394_j35003983463135_2_alg».proof.Proof.Gen.KernelIdeal.Skeleton
import proofs.«160394_j35003983463135_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`: those rows of its array, as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The whole 1024×256 block: the one rectangle the body loads and stores through. -/
abbrev wholeBlock : Rect S1024x256 := Rect.unit (s := S1024x256) ![0, 0] S1024x256.size inb_S1024x256_S1024x256_0_0

/-- What the body leaves in the output's staging buffer: the normalised rows of the input block. -/
def normedBlock (x0 : Vec F S1024x256 .f32) : Vec F S1024x256 .bf16 :=
  View.canon [⟨wholeBlock, k0_pay1 (View.ld x0 wholeBlock)⟩]

/-- The one store covers the buffer. -/
theorem cover_normed (p0 : Vec F S1024x256 .bf16) (y : S1024x256.Idx) :
    ∃ pc ∈ ([⟨wholeBlock, p0⟩] : List (View.Piece (Elt F) S1024x256 .bf16)), y ∈ pc.1.set :=
  View.cover_of_tiled [⟨wholeBlock, p0⟩] S1024x256.size (by rfl) y

set_option maxHeartbeats 1000000 in
/-- The body on whole staging memrefs: the input's kept, the output's at the normalised block. -/
theorem sound_kernel0 (c : Dev nD) (E : Set ℕ) (i : grid0.Coords) (arg1 : Memref sig .tc .vmem S1024x256 .f32) (harg1 : arg1.IsWhole) (arg2 : Memref sig .tc .vmem S1024x256 .bf16) (harg2 : arg2.IsWhole)
    (x0 : Vec F S1024x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (normedBlock x0)) -∗ K ⟨⟩))
      ⊢ wp frame (wpE (defs₀ (F := F)) Variants.none c none) E (cc0__normalize_b_kernel i arg1 harg1 arg2 harg2) K := by
  simp only [cc0__normalize_b_kernel_eq_skeleton]; unfold cc0__normalize_b_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_normed _)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => normedBlock (blk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = normedBlock (blk0 V c 0 t) := by dsimp only [dat0]

theorem before0_0 (c : Dev nD) (t : Fin cfg0.N) (d) : (dat0 V c).before 0 t d = blk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.IRegion1a.lean ====
/-
  The second pallas_call, what its three cases share. The grid is 8 × 8: point t = 8·i + j handles the rows
  1024·i … 1024·i+1023 of the first argument (window 0) and of the label column (window 2) against the columns
  1024·j … 1024·j+1023, cut by the body itself out of the whole normalised table (window 1) and the whole label
  row (window 3). Two scratch buffers carry, per row, the sum over the tiles seen so far of the masked and of
  the plain exponentials; they are reset on the first tile of a row block (j = 0) and copied to the two outputs
  (windows 4 and 5) on its last (j = 7), where alone the outputs are stored and written back.
-/
import proofs.«160394_j35003983463135_2_alg».proof.Proof.Gen.KernelIdeal.Launch
import proofs.«160394_j35003983463135_2_alg».proof.Proof.Gen.KernelIdeal.Skeleton
import proofs.«160394_j35003983463135_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

end

/-- The body's first branch: the tile is the first of its row block (j = 0). -/
abbrev firstTile (i : grid1.Coords) : Prop := (Scalar.cmpi .ne (Scalar.extui (Scalar.cmpi .eq (BitVec.ofNat 32 (i 1).val) 0#32)) 0#32) = 1#1
theorem firstTile_iff : ∀ t : Fin cfg1.N, firstTile (grid1.coords t) ↔ t.val % 8 = 0 :=
  (by decide +kernel : ∀ t : Fin grid1.N, firstTile (grid1.coords t) ↔ t.val % 8 = 0)

/-- The body's second branch: the tile is the last of its row block (j = 7). -/
abbrev lastTile (i : grid1.Coords) : Prop := k1_cond2 i = 1#1
theorem lastTile_iff : ∀ t : Fin cfg1.N, lastTile (grid1.coords t) ↔ t.val % 8 = 7 :=
  (by decide +kernel : ∀ t : Fin grid1.N, lastTile (grid1.coords t) ↔ t.val % 8 = 7)

/-- The inputs are never idle; the two outputs are idle, and not written back, off the last tile. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem idle1_4 : ∀ t : Fin cfg1.N, ¬lastTile (grid1.coords t) → cfg1.idle 4 (grid1.coords t) = true := by decide +kernel
theorem idle1_5 : ∀ t : Fin cfg1.N, ¬lastTile (grid1.coords t) → cfg1.idle 5 (grid1.coords t) = true := by decide +kernel
theorem noFlush1_4 : ∀ t : Fin cfg1.N, ¬lastTile (grid1.coords t) → (cfg1.win 4).flush t = false := by decide +kernel
theorem noFlush1_5 : ∀ t : Fin cfg1.N, ¬lastTile (grid1.coords t) → (cfg1.win 5).flush t = false := by decide +kernel
theorem live1_4 : ∀ t : Fin cfg1.N, lastTile (grid1.coords t) → cfg1.idle 4 (grid1.coords t) = false := by decide +kernel
theorem live1_5 : ∀ t : Fin cfg1.N, lastTile (grid1.coords t) → cfg1.idle 5 (grid1.coords t) = false := by decide +kernel

/-- Each window's current staging memref at point `t`, as the pipeline passes it, and its wholeness. -/
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8192 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
/-- The two accumulators: whole scoped buffers of the kernel's own. -/
abbrev accPos : Memref sig .tc .vmem S1024x1 .f32 := Memref.whole cc1_scratch0
abbrev accAll : Memref sig .tc .vmem S1024x1 .f32 := Memref.whole cc1_scratch1
/-- Views through which the outputs' and the accumulators' contents are stated. -/
abbrev VO4 : View sig .tc .vmem S1024x1 .f32 := (Memref.whole cc1_stg4_0 : Memref sig .tc .vmem S1024x1 .f32).view
abbrev VO5 : View sig .tc .vmem S1024x1 .f32 := (Memref.whole cc1_stg5_0 : Memref sig .tc .vmem S1024x1 .f32).view
abbrev VSP : View sig .tc .vmem S1024x1 .f32 := accPos.view
abbrev VSA : View sig .tc .vmem S1024x1 .f32 := accAll.view

/-- The first pipeline's four staging buffers, each whole at some contents: scoped buffers this kernel never touches. -/
def idleStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- The class invariant of this pipeline, spelt out: those four buffers, the two accumulators at some contents,
    the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) accPos fullShare d) ∗ (∃ d, owns (c : Thread nD τ) accAll fullShare d)) ∗ (∃ r, prngReg c r)) := by
  unfold Pipeline.ΦA; rw [scopedRest1_eq]; simp only [accPos, accAll, owns_whole]; try rfl

end Cert.KernelIdeal.Hand

end
-- ==== Proof.IRuns1.lean ====
/-
  The body of the second pallas_call run on whole staging memrefs, one run per case of its two branches
  (first tile of a row block / a middle tile / last tile): which buffers it needs at known contents, which it
  hands back untouched, and the pieces its stores leave in the accumulators and, on the last tile, in the outputs.
-/
import proofs.«160394_j35003983463135_2_alg».proof.Proof.IRegion1a

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The first tile of a row block: both accumulators, at whatever they held, are reset to zero, read back and
    stored once more; the outputs are not touched. -/
noncomputable def runFirst (c : Dev nD) (i : grid1.Coords) (arg2 : Memref sig .tc .vmem S1024x256 .f32) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc1 : firstTile i) (hc2 : ¬lastTile i)
    (xa : Vec F S1024x256 .f32) (xb : Vec F S8192x256 .bf16) (xr : Vec F S1024x1 .i32) (xc : Vec F S1x8192 .i32) :
    Σ' (LP : List (View.Piece (Elt F) S1024x1 .f32)), { LA : List (View.Piece (Elt F) S1024x1 .f32) //
      ∀ (o4 o5 : Vec F S1024x1 .f32) (E : Set ℕ) (K : PUnit → sProp 𝕄),
        iprop(owns (c : Thread nD τ) arg2 fullShare xa ∗ owns (c : Thread nD τ) arg3 fullShare xb ∗ owns (c : Thread nD τ) arg4 fullShare xr ∗ owns (c : Thread nD τ) arg5 fullShare xc ∗ owns (c : Thread nD τ) arg6 fullShare o4 ∗ owns (c : Thread nD τ) arg7 fullShare o5 ∗ (∃ d, owns (c : Thread nD τ) arg8 fullShare d) ∗ (∃ d, owns (c : Thread nD τ) arg9 fullShare d)
            ∗ (iprop(owns (c : Thread nD τ) arg2 fullShare xa ∗ owns (c : Thread nD τ) arg3 fullShare xb ∗ owns (c : Thread nD τ) arg4 fullShare xr ∗ owns (c : Thread nD τ) arg5 fullShare xc ∗ owns (c : Thread nD τ) arg6 fullShare o4 ∗ owns (c : Thread nD τ) arg7 fullShare o5 ∗ (∃ f, arg8.view.loc (c : Thread nD τ) ↦[arg8.view.set]{fullShare} arg8.view.writes (Elt F) f LP) ∗ (∃ f, arg9.view.loc (c : Thread nD τ) ↦[arg9.view.set]{fullShare} arg9.view.writes (Elt F) f LA)) -∗ K ⟨⟩))
          ⊢ wp frame (wpE (defs₀ (F := F)) Variants.none c none) E (cc1__pairwise_kernel i arg2 harg2 arg3 harg3 arg4 harg4 arg5 harg5 arg6 harg6 arg7 harg7 arg8 harg8 arg9 harg9) K } := by
  refine ⟨?_, ?_, fun o4 o5 E K => ?run⟩
  case run =>
    simp only [cc1__pairwise_kernel_eq_skeleton]; unfold cc1__pairwise_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7
    sl_exec (disch := first | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    iexists _; iexact H9

set_option maxHeartbeats 2000000 in
/-- A middle tile (neither first nor last of its row block): both accumulators are read at what the tile before
    left and stored once; the outputs are not touched. The pieces each accumulator ends with are found by the run. -/
noncomputable def runMid (c : Dev nD) (i : grid1.Coords) (arg2 : Memref sig .tc .vmem S1024x256 .f32) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc1 : ¬firstTile i) (hc2 : ¬lastTile i)
    (xa : Vec F S1024x256 .f32) (xb : Vec F S8192x256 .bf16) (xr : Vec F S1024x1 .i32) (xc : Vec F S1x8192 .i32) (s0 s1 : Vec F S1024x1 .f32) :
    Σ' (LP : List (View.Piece (Elt F) S1024x1 .f32)), { LA : List (View.Piece (Elt F) S1024x1 .f32) //
      ∀ (o4 o5 : Vec F S1024x1 .f32) (E : Set ℕ) (K : PUnit → sProp 𝕄),
        iprop(owns (c : Thread nD τ) arg2 fullShare xa ∗ owns (c : Thread nD τ) arg3 fullShare xb ∗ owns (c : Thread nD τ) arg4 fullShare xr ∗ owns (c : Thread nD τ) arg5 fullShare xc ∗ owns (c : Thread nD τ) arg6 fullShare o4 ∗ owns (c : Thread nD τ) arg7 fullShare o5 ∗ owns (c : Thread nD τ) arg8 fullShare s0 ∗ owns (c : Thread nD τ) arg9 fullShare s1
            ∗ (iprop(owns (c : Thread nD τ) arg2 fullShare xa ∗ owns (c : Thread nD τ) arg3 fullShare xb ∗ owns (c : Thread nD τ) arg4 fullShare xr ∗ owns (c : Thread nD τ) arg5 fullShare xc ∗ owns (c : Thread nD τ) arg6 fullShare o4 ∗ owns (c : Thread nD τ) arg7 fullShare o5 ∗ (∃ f, arg8.view.loc (c : Thread nD τ) ↦[arg8.view.set]{fullShare} arg8.view.writes (Elt F) f LP) ∗ (∃ f, arg9.view.loc (c : Thread nD τ) ↦[arg9.view.set]{fullShare} arg9.view.writes (Elt F) f LA)) -∗ K ⟨⟩))
          ⊢ wp frame (wpE (defs₀ (F := F)) Variants.none c none) E (cc1__pairwise_kernel i arg2 harg2 arg3 harg3 arg4 harg4 arg5 harg5 arg6 harg6 arg7 harg7 arg8 harg8 arg9 harg9) K } := by
  refine ⟨?_, ?_, fun o4 o5 E K => ?run⟩
  case run =>
    simp only [cc1__pairwise_kernel_eq_skeleton]; unfold cc1__pairwise_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    sl_exec (disch := first | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    iexists _; iexact H9

set_option maxHeartbeats 2000000 in
/-- The last tile of a row block: both accumulators are read at what the tile before left, stored once, read
    back and copied into the two outputs, which are at anything before. -/
noncomputable def runLast (c : Dev nD) (i : grid1.Coords) (arg2 : Memref sig .tc .vmem S1024x256 .f32) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc1 : ¬firstTile i) (hc2 : lastTile i)
    (xa : Vec F S1024x256 .f32) (xb : Vec F S8192x256 .bf16) (xr : Vec F S1024x1 .i32) (xc : Vec F S1x8192 .i32) (s0 s1 : Vec F S1024x1 .f32) :
    Σ' (L4 : List (View.Piece (Elt F) S1024x1 .f32)) (L5 : List (View.Piece (Elt F) S1024x1 .f32)) (LP : List (View.Piece (Elt F) S1024x1 .f32)), { LA : List (View.Piece (Elt F) S1024x1 .f32) //
      ∀ (E : Set ℕ) (K : PUnit → sProp 𝕄),
        iprop(owns (c : Thread nD τ) arg2 fullShare xa ∗ owns (c : Thread nD τ) arg3 fullShare xb ∗ owns (c : Thread nD τ) arg4 fullShare xr ∗ owns (c : Thread nD τ) arg5 fullShare xc ∗ (∃ d, owns (c : Thread nD τ) arg6 fullShare d) ∗ (∃ d, owns (c : Thread nD τ) arg7 fullShare d) ∗ owns (c : Thread nD τ) arg8 fullShare s0 ∗ owns (c : Thread nD τ) arg9 fullShare s1
            ∗ (iprop(owns (c : Thread nD τ) arg2 fullShare xa ∗ owns (c : Thread nD τ) arg3 fullShare xb ∗ owns (c : Thread nD τ) arg4 fullShare xr ∗ owns (c : Thread nD τ) arg5 fullShare xc ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LP) ∗ (∃ f, arg9.view.loc (c : Thread nD τ) ↦[arg9.view.set]{fullShare} arg9.view.writes (Elt F) f LA)) -∗ K ⟨⟩))
          ⊢ wp frame (wpE (defs₀ (F := F)) Variants.none c none) E (cc1__pairwise_kernel i arg2 harg2 arg3 harg3 arg4 harg4 arg5 harg5 arg6 harg6 arg7 harg7 arg8 harg8 arg9 harg9) K } := by
  refine ⟨?_, ?_, ?_, ?_, fun E K => ?run⟩
  case run =>
    simp only [cc1__pairwise_kernel_eq_skeleton]; unfold cc1__pairwise_kernel_skel
    simp only [k1_part1_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5
    obtain rfl := harg8.eq_unread hf8; obtain rfl := harg9.eq_unread hf9
    sl_exec (disch := first | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; iexact H7
    isplitl [H8]
    · iexists _; iexact H8
    iexists _; iexact H9

end Cert.KernelIdeal.Hand

end
-- ==== Proof.IRegion1.lean ====
/-
  The second pallas_call, assembled: what each of the three cases leaves in the two accumulators (and, on a last
  tile, in the two outputs), the accumulation point by point over the 64 grid points, the region's invariant — after
  point n both accumulators hold what point n left —, the pipeline's proof data and its body obligation.
-/
import proofs.«160394_j35003983463135_2_alg».proof.Proof.IRuns1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What each case leaves -/

/-- A buffer's contents nobody reads: what an output's staging buffer is said to hold at a point where the body does
    not store into it and the pipeline does not write it back. -/
def unread4 : Vec F S1024x1 .f32 := VO4.read (Elt F) (VO4.writes (Elt F) VO4.junk [])
def unread5 : Vec F S1024x1 .f32 := VO5.read (Elt F) (VO5.writes (Elt F) VO5.junk [])

theorem coverP_first (c : Dev nD) (t : Fin cfg1.N) (h0 : t.val % 8 = 0) (y : S1024x1.Idx) :
    ∃ pc ∈ (runFirst c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) ((firstTile_iff t).mpr h0) (fun h => absurd ((lastTile_iff t).mp h) (by omega)) (blk1 V c 0 t) (blk1 V c 1 t) (blk1 V c 2 t) (blk1 V c 3 t)).1, y ∈ pc.1.set :=
  View.cover_of_tiledL (runFirst c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) ((firstTile_iff t).mpr h0) (fun h => absurd ((lastTile_iff t).mp h) (by omega)) (blk1 V c 0 t) (blk1 V c 1 t) (blk1 V c 2 t) (blk1 V c 3 t)).1 S1024x1.size (by sl_kernel_rfl) y
theorem coverA_first (c : Dev nD) (t : Fin cfg1.N) (h0 : t.val % 8 = 0) (y : S1024x1.Idx) :
    ∃ pc ∈ (runFirst c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) ((firstTile_iff t).mpr h0) (fun h => absurd ((lastTile_iff t).mp h) (by omega)) (blk1 V c 0 t) (blk1 V c 1 t) (blk1 V c 2 t) (blk1 V c 3 t)).2.1, y ∈ pc.1.set :=
  View.cover_of_tiledL (runFirst c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) ((firstTile_iff t).mpr h0) (fun h => absurd ((lastTile_iff t).mp h) (by omega)) (blk1 V c 0 t) (blk1 V c 1 t) (blk1 V c 2 t) (blk1 V c 3 t)).2.1 S1024x1.size (by sl_kernel_rfl) y
/-- The accumulators after a first tile. -/
def accP_first (c : Dev nD) (t : Fin cfg1.N) (h0 : t.val % 8 = 0) : Vec F S1024x1 .f32 :=
  VSP.read (Elt F) (VSP.writes (Elt F) VSP.junk (runFirst c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) ((firstTile_iff t).mpr h0) (fun h => absurd ((lastTile_iff t).mp h) (by omega)) (blk1 V c 0 t) (blk1 V c 1 t) (blk1 V c 2 t) (blk1 V c 3 t)).1)
def accA_first (c : Dev nD) (t : Fin cfg1.N) (h0 : t.val % 8 = 0) : Vec F S1024x1 .f32 :=
  VSA.read (Elt F) (VSA.writes (Elt F) VSA.junk (runFirst c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) ((firstTile_iff t).mpr h0) (fun h => absurd ((lastTile_iff t).mp h) (by omega)) (blk1 V c 0 t) (blk1 V c 1 t) (blk1 V c 2 t) (blk1 V c 3 t)).2.1)

theorem coverP_mid (c : Dev nD) (t : Fin cfg1.N) (h0 : ¬t.val % 8 = 0) (h1 : ¬t.val % 8 = 7) (p0 p1 : Vec F S1024x1 .f32) (y : S1024x1.Idx) :
    ∃ pc ∈ (runMid c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) (fun h => h1 ((lastTile_iff t).mp h)) (blk1 V c 0 t) (blk1 V c 1 t) (blk1 V c 2 t) (blk1 V c 3 t) p0 p1).1, y ∈ pc.1.set :=
  View.cover_of_tiledL (runMid c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) (fun h => h1 ((lastTile_iff t).mp h)) (blk1 V c 0 t) (blk1 V c 1 t) (blk1 V c 2 t) (blk1 V c 3 t) p0 p1).1 S1024x1.size (by sl_kernel_rfl) y
theorem coverA_mid (c : Dev nD) (t : Fin cfg1.N) (h0 : ¬t.val % 8 = 0) (h1 : ¬t.val % 8 = 7) (p0 p1 : Vec F S1024x1 .f32) (y : S1024x1.Idx) :
    ∃ pc ∈ (runMid c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) (fun h => h1 ((lastTile_iff t).mp h)) (blk1 V c 0 t) (blk1 V c 1 t) (blk1 V c 2 t) (blk1 V c 3 t) p0 p1).2.1, y ∈ pc.1.set :=
  View.cover_of_tiledL (runMid c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) (fun h => h1 ((lastTile_iff t).mp h)) (blk1 V c 0 t) (blk1 V c 1 t) (blk1 V c 2 t) (blk1 V c 3 t) p0 p1).2.1 S1024x1.size (by sl_kernel_rfl) y
/-- The accumulators after a middle tile, from what the tile before left (`p0`, `p1`). -/
def accP_mid (c : Dev nD) (t : Fin cfg1.N) (h0 : ¬t.val % 8 = 0) (h1 : ¬t.val % 8 = 7) (p0 p1 : Vec F S1024x1 .f32) : Vec F S1024x1 .f32 :=
  VSP.read (Elt F) (VSP.writes (Elt F) VSP.junk (runMid c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) (fun h => h1 ((lastTile_iff t).mp h)) (blk1 V c 0 t) (blk1 V c 1 t) (blk1 V c 2 t) (blk1 V c 3 t) p0 p1).1)
def accA_mid (c : Dev nD) (t : Fin cfg1.N) (h0 : ¬t.val % 8 = 0) (h1 : ¬t.val % 8 = 7) (p0 p1 : Vec F S1024x1 .f32) : Vec F S1024x1 .f32 :=
  VSA.read (Elt F) (VSA.writes (Elt F) VSA.junk (runMid c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) (fun h => h1 ((lastTile_iff t).mp h)) (blk1 V c 0 t) (blk1 V c 1 t) (blk1 V c 2 t) (blk1 V c 3 t) p0 p1).2.1)

theorem cover4_last (c : Dev nD) (t : Fin cfg1.N) (h0 : ¬t.val % 8 = 0) (h1 : t.val % 8 = 7) (p0 p1 : Vec F S1024x1 .f32) (y : S1024x1.Idx) :
    ∃ pc ∈ (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).1, y ∈ pc.1.set :=
  View.cover_of_tiledL (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).1 S1024x1.size (by sl_kernel_rfl) y
theorem cover5_last (c : Dev nD) (t : Fin cfg1.N) (h0 : ¬t.val % 8 = 0) (h1 : t.val % 8 = 7) (p0 p1 : Vec F S1024x1 .f32) (y : S1024x1.Idx) :
    ∃ pc ∈ (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).2.1, y ∈ pc.1.set :=
  View.cover_of_tiledL (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).2.1 S1024x1.size (by sl_kernel_rfl) y
theorem coverP_last (c : Dev nD) (t : Fin cfg1.N) (h0 : ¬t.val % 8 = 0) (h1 : t.val % 8 = 7) (p0 p1 : Vec F S1024x1 .f32) (y : S1024x1.Idx) :
    ∃ pc ∈ (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).2.2.1, y ∈ pc.1.set :=
  View.cover_of_tiledL (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).2.2.1 S1024x1.size (by sl_kernel_rfl) y
theorem coverA_last (c : Dev nD) (t : Fin cfg1.N) (h0 : ¬t.val % 8 = 0) (h1 : t.val % 8 = 7) (p0 p1 : Vec F S1024x1 .f32) (y : S1024x1.Idx) :
    ∃ pc ∈ (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).2.2.2.1, y ∈ pc.1.set :=
  View.cover_of_tiledL (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).2.2.2.1 S1024x1.size (by sl_kernel_rfl) y
/-- The outputs and the accumulators after a last tile. -/
def out4_last (c : Dev nD) (t : Fin cfg1.N) (h0 : ¬t.val % 8 = 0) (h1 : t.val % 8 = 7) (p0 p1 : Vec F S1024x1 .f32) : Vec F S1024x1 .f32 :=
  VO4.read (Elt F) (VO4.writes (Elt F) VO4.junk (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).1)
def out5_last (c : Dev nD) (t : Fin cfg1.N) (h0 : ¬t.val % 8 = 0) (h1 : t.val % 8 = 7) (p0 p1 : Vec F S1024x1 .f32) : Vec F S1024x1 .f32 :=
  VO5.read (Elt F) (VO5.writes (Elt F) VO5.junk (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).2.1)
def accP_last (c : Dev nD) (t : Fin cfg1.N) (h0 : ¬t.val % 8 = 0) (h1 : t.val % 8 = 7) (p0 p1 : Vec F S1024x1 .f32) : Vec F S1024x1 .f32 :=
  VSP.read (Elt F) (VSP.writes (Elt F) VSP.junk (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).2.2.1)
def accA_last (c : Dev nD) (t : Fin cfg1.N) (h0 : ¬t.val % 8 = 0) (h1 : t.val % 8 = 7) (p0 p1 : Vec F S1024x1 .f32) : Vec F S1024x1 .f32 :=
  VSA.read (Elt F) (VSA.writes (Elt F) VSA.junk (runLast c (grid1.coords t) (ms1_0 t) (hs1_0 t) (ms1_1 t) (hs1_1 t) (ms1_2 t) (hs1_2 t) (ms1_3 t) (hs1_3 t) (ms1_4 t) (hs1_4 t) (ms1_5 t) (hs1_5 t) accPos (Memref.isWhole_whole _) accAll (Memref.isWhole_whole _) (fun h => h0 ((firstTile_iff t).mp h)) ((lastTile_iff t).mpr h1) (blk1 V c 0 t) (blk1 V c 1 t) (blk1 V c 2 t) (blk1 V c 3 t) p0 p1).2.2.2.1)

/-! ## The accumulation -/

/-- One point: the two outputs' staging buffers and the two accumulators after the body at `t`, from what the point
    before left in the accumulators (`p0`, `p1`; not consulted on a first tile). -/
def tileStep (c : Dev nD) (t : Fin cfg1.N) (p0 p1 : Vec F S1024x1 .f32) : Vec F S1024x1 .f32 × Vec F S1024x1 .f32 × Vec F S1024x1 .f32 × Vec F S1024x1 .f32 :=
  if h0 : t.val % 8 = 0 then
    (unread4, unread5, accP_first V c t h0, accA_first V c t h0)
  else if h1 : t.val % 8 = 7 then
    (out4_last V c t h0 h1 p0 p1, out5_last V c t h0 h1 p0 p1, accP_last V c t h0 h1 p0 p1, accA_last V c t h0 h1 p0 p1)
  else
    (unread4, unread5, accP_mid V c t h0 h1 p0 p1, accA_mid V c t h0 h1 p0 p1)

/-- After position `n`: by recursion on the position, each point fed what the one before left. -/
def outsAt1 (c : Dev nD) : (n : ℕ) → n < cfg1.N → Vec F S1024x1 .f32 × Vec F S1024x1 .f32 × Vec F S1024x1 .f32 × Vec F S1024x1 .f32
  | 0, hn => tileStep V c ⟨0, hn⟩ unread4 unread5
  | n + 1, hn => tileStep V c ⟨n + 1, hn⟩ (outsAt1 c n (Nat.lt_of_succ_lt hn)).2.2.1 (outsAt1 c n (Nat.lt_of_succ_lt hn)).2.2.2

theorem outsAt1_pos (c : Dev nD) (t : Fin cfg1.N) (hz : t.val ≠ 0) :
    outsAt1 V c t.val t.isLt = tileStep V c t (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd rfl hz
  | succ n => rfl

theorem tileStep_first (c : Dev nD) (t : Fin cfg1.N) (p0 p1 : Vec F S1024x1 .f32) (h0 : t.val % 8 = 0) :
    tileStep V c t p0 p1 = (unread4, unread5, accP_first V c t h0, accA_first V c t h0) := dif_pos h0
theorem tileStep_last (c : Dev nD) (t : Fin cfg1.N) (p0 p1 : Vec F S1024x1 .f32) (h0 : ¬t.val % 8 = 0) (h1 : t.val % 8 = 7) :
    tileStep V c t p0 p1 = (out4_last V c t h0 h1 p0 p1, out5_last V c t h0 h1 p0 p1, accP_last V c t h0 h1 p0 p1, accA_last V c t h0 h1 p0 p1) :=
  (dif_neg h0).trans (dif_pos h1)
theorem tileStep_mid (c : Dev nD) (t : Fin cfg1.N) (p0 p1 : Vec F S1024x1 .f32) (h0 : ¬t.val % 8 = 0) (h1 : ¬t.val % 8 = 7) :
    tileStep V c t p0 p1 = (unread4, unread5, accP_mid V c t h0 h1 p0 p1, accA_mid V c t h0 h1 p0 p1) :=
  (dif_neg h0).trans (dif_neg h1)

/-- At a first tile nothing of the point before is consulted. -/
theorem outsAt1_first (c : Dev nD) (t : Fin cfg1.N) (h0 : t.val % 8 = 0) :
    outsAt1 V c t.val t.isLt = (unread4, unread5, accP_first V c t h0, accA_first V c t h0) := by
  obtain ⟨n, hn⟩ := t
  cases n with
  | zero => exact tileStep_first V c _ _ _ h0
  | succ n => exact tileStep_first V c _ _ _ h0

/-! ## The invariant -/

/-- Before position `n`: at the start the class's invariant (both accumulators at anything); afterwards the first
    pipeline's staging buffers at anything, each accumulator at what the point before left, the generator register. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) accPos fullShare (outsAt1 V c n hn).2.2.1 ∗ owns (c : Thread nD τ) accAll fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) accPos fullShare (outsAt1 V c n hn).2.2.1 ∗ owns (c : Thread nD τ) accAll fullShare (outsAt1 V c n hn).2.2.2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) accPos fullShare (outsAt1 V c (n - 1) (by omega)).2.2.1 ∗ owns (c : Thread nD τ) accAll fullShare (outsAt1 V c (n - 1) (by omega)).2.2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => (outsAt1 V c t.val t.isLt).1
    | ⟨5, _⟩ => (outsAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d

end

section
variable (V : (c : Dev nD) → (b : Ref sig .tc) → Buf (Elt F) ((c : Thread nD τ).loc b))

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 6400000 in
/-- The body at any point: the inputs' memrefs hold their blocks; the point's position in its row block says which
    case it is; the invariant hands the run both accumulators — at anything before the very first point, at what the
    point before left afterwards — and takes them back at this point's contents; the outputs' buffers pass through
    untouched off a last tile and are stored whole on one. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  by_cases h0 : t.val % 8 = 0
  · have hnl : ¬lastTile (grid1.coords t) := fun h => absurd ((lastTile_iff t).mp h) (by omega)
    rw [Dat.leavesExact_idle (dat1 V c) 4 t (idle1_4 t hnl) (noFlush1_4 t hnl),
      Dat.leavesExact_idle (dat1 V c) 5 t (idle1_5 t hnl) (noFlush1_5 t hnl)]
    rw [outsAt1_first V c t h0]
    unfold accP_first accA_first; (try dsimp only)
    by_cases hz : t.val = 0
    · rw [PhiS_castSucc V c t, PhiS_zero V c _ _ hz, PhiA1_eq]
      iintro ⟨⟨⟨HA, HB, HC, HD, HS0, HS1⟩, Hg⟩, Ho, ⟨%d0, H0⟩, ⟨%d1, H1⟩, ⟨%d2, H2⟩, ⟨%d3, H3⟩, ⟨%d4, H4⟩, ⟨%d5, H5⟩⟩
      iapply ((runFirst c (grid1.coords t) _ _ _ _ _ _ _ _ _ _ _ _ _ _ _ _ ((firstTile_iff t).mpr h0) hnl (blk1 V c 0 t) (blk1 V c 1 t) (blk1 V c 2 t) (blk1 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HA HB HC HD HS0 HS1 Hg]
      · isplitl [HA HB HC HD HS0 HS1]
        · isplitl [HA]; · iexact HA
          isplitl [HB]; · iexact HB
          isplitl [HC]; · iexact HC
          isplitl [HD]; · iexact HD
          isplitl [HS0]
          · unfold owns; iexists _; isplitr
            swap; · iexact HS0
            ipureintro; exact View.read_writes_of_cover _ _ _ _ _ (coverP_first V c t h0)
          unfold owns; iexists _; isplitr
          swap; · iexact HS1
          ipureintro; exact View.read_writes_of_cover _ _ _ _ _ (coverA_first V c t h0)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc V c t, PhiS_pos V c _ _ hz]
      iintro ⟨⟨⟨HA, HB, HC, HD, HS0, HS1⟩, Hg⟩, Ho, ⟨%d0, H0⟩, ⟨%d1, H1⟩, ⟨%d2, H2⟩, ⟨%d3, H3⟩, ⟨%d4, H4⟩, ⟨%d5, H5⟩⟩
      iapply ((runFirst c (grid1.coords t) _ _ _ _ _ _ _ _ _ _ _ _ _ _ _ _ ((firstTile_iff t).mpr h0) hnl (blk1 V c 0 t) (blk1 V c 1 t) (blk1 V c 2 t) (blk1 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HA HB HC HD HS0 HS1 Hg]
      · isplitl [HA HB HC HD HS0 HS1]
        · isplitl [HA]; · iexact HA
          isplitl [HB]; · iexact HB
          isplitl [HC]; · iexact HC
          isplitl [HD]; · iexact HD
          isplitl [HS0]
          · unfold owns; iexists _; isplitr
            swap; · iexact HS0
            ipureintro; exact View.read_writes_of_cover _ _ _ _ _ (coverP_first V c t h0)
          unfold owns; iexists _; isplitr
          swap; · iexact HS1
          ipureintro; exact View.read_writes_of_cover _ _ _ _ _ (coverA_first V c t h0)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hnf : ¬firstTile (grid1.coords t) := fun h => h0 ((firstTile_iff t).mp h)
    have hz : t.val ≠ 0 := fun h => h0 (by rw [h])
    by_cases h1 : t.val % 8 = 7
    · have hl : lastTile (grid1.coords t) := (lastTile_iff t).mpr h1
      rw [show (dat1 V c).leavesExact 4 t = owns (c : Thread nD τ) (ms1_4 t) fullShare ((dat1 V c).after 4 t) from by
        unfold Dat.leavesExact; rw [live1_4 t hl], after1_4]
      rw [show (dat1 V c).leavesExact 5 t = owns (c : Thread nD τ) (ms1_5 t) fullShare ((dat1 V c).after 5 t) from by
        unfold Dat.leavesExact; rw [live1_5 t hl], after1_5]
      rw [outsAt1_pos V c t hz, tileStep_last V c t _ _ h0 h1]
      unfold out4_last out5_last accP_last accA_last; (try dsimp only)
      rw [PhiS_castSucc V c t, PhiS_pos V c _ _ hz]
      iintro ⟨⟨⟨HA, HB, HC, HD, HS0, HS1⟩, Hg⟩, Ho, ⟨%d0, H0⟩, ⟨%d1, H1⟩, ⟨%d2, H2⟩, ⟨%d3, H3⟩, ⟨%d4, H4⟩, ⟨%d5, H5⟩⟩
      iapply ((runLast c (grid1.coords t) _ _ _ _ _ _ _ _ _ _ _ _ _ _ _ _ hnf hl (blk1 V c 0 t) (blk1 V c 1 t) (blk1 V c 2 t) (blk1 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HA HB HC HD HS0 HS1 Hg]
      · isplitl [HA HB HC HD HS0 HS1]
        · isplitl [HA]; · iexact HA
          isplitl [HB]; · iexact HB
          isplitl [HC]; · iexact HC
          isplitl [HD]; · iexact HD
          isplitl [HS0]
          · unfold owns; iexists _; isplitr
            swap; · iexact HS0
            ipureintro; exact View.read_writes_of_cover _ _ _ _ _ (coverP_last V c t h0 h1 _ _)
          unfold owns; iexists _; isplitr
          swap; · iexact HS1
          ipureintro; exact View.read_writes_of_cover _ _ _ _ _ (coverA_last V c t h0 h1 _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_last V c t h0 h1 _ _)
      unfold owns; iexists _; isplitr
      swap; · iexact H5
      ipureintro; exact View.read_writes_of_cover _ _ _ _ _ (cover5_last V c t h0 h1 _ _)
    · have hnl : ¬lastTile (grid1.coords t) := fun h => h1 ((lastTile_iff t).mp h)
      rw [Dat.leavesExact_idle (dat1 V c) 4 t (idle1_4 t hnl) (noFlush1_4 t hnl),
        Dat.leavesExact_idle (dat1 V c) 5 t (idle1_5 t hnl) (noFlush1_5 t hnl)]
      rw [outsAt1_pos V c t hz, tileStep_mid V c t _ _ h0 h1]
      unfold accP_mid accA_mid; (try dsimp only)
      rw [PhiS_castSucc V c t, PhiS_pos V c _ _ hz]
      iintro ⟨⟨⟨HA, HB, HC, HD, HS0, HS1⟩, Hg⟩, Ho, ⟨%d0, H0⟩, ⟨%d1, H1⟩, ⟨%d2, H2⟩, ⟨%d3, H3⟩, ⟨%d4, H4⟩, ⟨%d5, H5⟩⟩
      iapply ((runMid c (grid1.coords t) _ _ _ _ _ _ _ _ _ _ _ _ _ _ _ _ hnf hnl (blk1 V c 0 t) (blk1 V c 1 t) (blk1 V c 2 t) (blk1 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HA HB HC HD HS0 HS1 Hg]
      · isplitl [HA HB HC HD HS0 HS1]
        · isplitl [HA]; · iexact HA
          isplitl [HB]; · iexact HB
          isplitl [HC]; · iexact HC
          isplitl [HD]; · iexact HD
          isplitl [HS0]
          · unfold owns; iexists _; isplitr
            swap; · iexact HS0
            ipureintro; exact View.read_writes_of_cover _ _ _ _ _ (coverP_mid V c t h0 h1 _ _)
          unfold owns; iexists _; isplitr
          swap; · iexact HS1
          ipureintro; exact View.read_writes_of_cover _ _ _ _ _ (coverA_mid V c t h0 h1 _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: what the accumulators hold is forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨HA, HB, HC, HD, HS0, HS1⟩, Hg⟩
  isplitl [HA HB HC HD HS0 HS1]
  · isplitl [HA]; · iexact HA
    isplitl [HB]; · iexact HB
    isplitl [HC]; · iexact HC
    isplitl [HD]; · iexact HD
    isplitl [HS0]; · iexists _; iexact HS0
    iexists _; iexact HS1
  iexact Hg

end

end Cert.KernelIdeal.Hand

end
-- ==== Proof.IFold.lean ====
/-
  The contents of the TensorCore's buffers at each boundary of @main, as a fold from the launch memory: after the
  first pallas_call (its output array at what its write-backs leave), after the two reshapes of the labels, after the
  second pallas_call, after the nine closing host operations; and each argument array read back through the fold to
  its launch contents (no host operation and no region writes one).
-/
import proofs.«160394_j35003983463135_2_alg».proof.Proof.IRegion0
import proofs.«160394_j35003983463135_2_alg».proof.Proof.IRegion1
import proofs.«160394_j35003983463135_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch (where the first region is entered). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two reshapes of the labels (where the second region is entered). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the nine closing host operations: the contents at the return. -/
abbrev W4 : Dev nD → Valuation τ sig (Elt F) := fun c => StableHlo.after hostOps2 (W3 m ρ c)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (r := main_arg0) (by decide)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := StableHlo.after_of_writes_sub hostOps1 _ hostOps1_writes (r := main_arg0) (by decide)
    _ = W0 m ρ c (Proc.devRef .tc main_arg0) := W1_of_ne m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (r := main_arg1) (by decide)
    _ = W2 m ρ c (Proc.devRef .tc main_arg1) := W3_of_ne m ρ c main_arg1 (by decide)
    _ = W1 m ρ c (Proc.devRef .tc main_arg1) := StableHlo.after_of_writes_sub hostOps1 _ hostOps1_writes (r := main_arg1) (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (r := main_arg2) (by decide)
    _ = W2 m ρ c (Proc.devRef .tc main_arg2) := W3_of_ne m ρ c main_arg2 (by decide)
    _ = W1 m ρ c (Proc.devRef .tc main_arg2) := StableHlo.after_of_writes_sub hostOps1 _ hostOps1_writes (r := main_arg2) (by decide)
    _ = W0 m ρ c (Proc.devRef .tc main_arg2) := W1_of_ne m ρ c main_arg2 (by decide)
    _ = m ((c : Thread nD τ).loc main_arg2) := rfl

end Cert.KernelIdeal.Hand

end
-- ==== Proof.IRun.lean ====
/-
  @main from the launch to the return: each region a segment around its pipeline's proof data, each host stretch a
  segment over its operations; the run ends with every unscoped buffer at the last valuation of the fold, from which
  the claims read the result and the arguments.
-/
import proofs.«160394_j35003983463135_2_alg».proof.Proof.IFold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    have h := hout1 (F := F) (V2 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped buffer at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_main m ρ)

end Cert.KernelIdeal.Hand

end
-- ==== Proof.ICuts.lean ====
/-
  The two cuts the body of the second pallas_call makes itself: out of the whole normalised table (8192 rows) the
  1024 rows of the tile's column block, and out of the whole label row the 1024 labels of that block.
-/
import proofs.«160394_j35003983463135_2_alg».proof.Proof.IRegion1a

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Rows 1024·j … 1024·j+1023 of the whole table, j the tile's column block. -/
def colTile (i : grid1.Coords) (B : Vec F S8192x256 .bf16) : Vec F S1024x256 .bf16 :=
  View.ld B (Rect.unit (s := S8192x256) (k1_off1 i) S1024x256.size (k1_off1_inb i))

/-- Labels 1024·j … 1024·j+1023 of the whole label row. -/
def colLabels (i : grid1.Coords) (LC : Vec F S1x8192 .i32) : Vec F S1x1024 .i32 :=
  View.ld LC (Rect.unit (s := S1x8192) (k1_off2 i) S1x1024.size (k1_off2_inb i))

end Cert.KernelIdeal.Hand

end
-- ==== Proof.IPieces.lean ====
/-
  The second pallas_call's body, read back as values. Each case of the body (first tile of a row block, a middle
  tile, the last tile) leaves in each accumulator — and, on a last tile, in each output — a list of stored pieces
  covering the whole 1024 × 1 buffer. Read through any view, a covering list is its canonical contents: the payload
  of the last store that covers each index. Every store here is through the whole-buffer rectangle at zero offsets,
  so the contents are the last store's payload; every load of an input is through the whole staging buffer (reading
  the window's block) or, for the table and the label row, through the 1024-row / 1024-label rectangle at the tile
  column's offset (`colTile`, `colLabels`, defined with the cuts). What results are the skeleton's payload functions
  of the loaded blocks:

    masked sum :  k1_pay1 (k1_pay6 a (colTile i B) (colLabels i LC) lr p)     p = the accumulator before this tile
    plain sum  :  k1_pay2 (k1_pay5 a (colTile i B)) q                         q = the accumulator before this tile

  with p, q the zero block (`k1_pay3`, `k1_pay4`) on a first tile — the body stores it, reads it back and adds to
  it — and, on a last tile, the two outputs are copies of the freshly stored accumulators.
-/
import proofs.«160394_j35003983463135_2_alg».proof.Proof.IRegion1
import proofs.«160394_j35003983463135_2_alg».proof.Proof.ICuts
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 rectangle, however spelt. -/
theorem zeroOff2 : (![0, 0] : Fin 2 → Nat) = fun _ => 0 := funext fun a => by fin_cases a <;> rfl

/-- A whole accumulator at raw contents that read `X` reads `X` (the view of a whole buffer is the identity). -/
theorem accPos_read_unread (X : Vec F S1024x1 .f32) :
    View.read (Elt F) (View.whole cc1_scratch0) ((Memref.isWhole_whole cc1_scratch0).unread X) = X :=
  (Memref.isWhole_whole cc1_scratch0).read_unread X
theorem accAll_read_unread (X : Vec F S1024x1 .f32) :
    View.read (Elt F) (View.whole cc1_scratch1) ((Memref.isWhole_whole cc1_scratch1).unread X) = X :=
  (Memref.isWhole_whole cc1_scratch1).read_unread X

section
variable (V : (c : Dev nD) → (b : Ref sig .tc) → Buf (Elt F) ((c : Thread nD τ).loc b))

/-! ## A middle tile: one covering store into each accumulator, its loads reading the whole buffers -/

/-- The masked-sum accumulator after a middle tile: what it held, plus this tile's masked row sums. -/
theorem accP_mid_eq (c : Dev nD) (t : Fin cfg1.N) (h0 : ¬t.val % 8 = 0) (h1 : ¬t.val % 8 = 7) (p0 p1 : Vec F S1024x1 .f32) :
    accP_mid V c t h0 h1 p0 p1 = k1_pay1 (k1_pay6 (blk1 V c 0 t) (colTile (grid1.coords t) (blk1 V c 1 t)) (colLabels (grid1.coords t) (blk1 V c 3 t)) (blk1 V c 2 t) p0) := by
  unfold accP_mid
  rw [View.read_writes_eq_canon _ _ _ (coverP_mid V c t h0 h1 p0 p1)]
  unfold runMid
  dsimp only
  sl_unfold_words
  rw [View.canon_unit_zero zeroOff2]
  simp only [View.readAt_eq_ld, (hs1_0 t).read_unread, (hs1_1 t).read_unread, (hs1_2 t).read_unread, (hs1_3 t).read_unread,
    accPos_read_unread, accAll_read_unread, View.ld_unit_zero (S := S1024x256) zeroOff2, View.ld_unit_zero (S := S1024x1) zeroOff2]
  rfl

/-- The plain-sum accumulator after a middle tile: what it held, plus this tile's row sums. -/
theorem accA_mid_eq (c : Dev nD) (t : Fin cfg1.N) (h0 : ¬t.val % 8 = 0) (h1 : ¬t.val % 8 = 7) (p0 p1 : Vec F S1024x1 .f32) :
    accA_mid V c t h0 h1 p0 p1 = k1_pay2 (k1_pay5 (blk1 V c 0 t) (colTile (grid1.coords t) (blk1 V c 1 t))) p1 := by
  unfold accA_mid
  rw [View.read_writes_eq_canon _ _ _ (coverA_mid V c t h0 h1 p0 p1)]
  unfold runMid
  dsimp only
  sl_unfold_words
  rw [View.canon_unit_zero zeroOff2]
  simp only [View.readAt_eq_ld, (hs1_0 t).read_unread, (hs1_1 t).read_unread, (hs1_2 t).read_unread, (hs1_3 t).read_unread,
    accPos_read_unread, accAll_read_unread, View.ld_unit_zero (S := S1024x256) zeroOff2, View.ld_unit_zero (S := S1024x1) zeroOff2]
  rfl

/-! ## A first tile: the zero block is stored, read back (a load the first store covers), and added to -/

/-- The masked-sum accumulator after a first tile: the zero block plus this tile's masked row sums. The second store
    is the last and covers the buffer, so the contents are its payload; the accumulator value that payload reads is
    what the first store — of the zero block, through the whole buffer — left. -/
theorem accP_first_eq (c : Dev nD) (t : Fin cfg1.N) (h0 : t.val % 8 = 0) :
    accP_first V c t h0 = k1_pay1 (k1_pay6 (blk1 V c 0 t) (colTile (grid1.coords t) (blk1 V c 1 t)) (colLabels (grid1.coords t) (blk1 V c 3 t)) (blk1 V c 2 t) k1_pay3) := by
  unfold accP_first
  rw [View.read_writes_eq_canon _ _ _ (coverP_first V c t h0)]
  unfold runFirst
  dsimp only
  sl_unfold_words
  rw [View.canon_cons_unit_zero (S := S1024x1) zeroOff2, View.readCov_unit_zero (S := S1024x1) _ zeroOff2]
  simp only [View.readAt_eq_ld, (hs1_0 t).read_unread, (hs1_1 t).read_unread, (hs1_2 t).read_unread, (hs1_3 t).read_unread,
    accPos_read_unread, accAll_read_unread, View.ld_unit_zero (S := S1024x256) zeroOff2, View.ld_unit_zero (S := S1024x1) zeroOff2]
  rfl

/-- The plain-sum accumulator after a first tile: the zero block plus this tile's row sums. -/
theorem accA_first_eq (c : Dev nD) (t : Fin cfg1.N) (h0 : t.val % 8 = 0) :
    accA_first V c t h0 = k1_pay2 (k1_pay5 (blk1 V c 0 t) (colTile (grid1.coords t) (blk1 V c 1 t))) k1_pay4 := by
  unfold accA_first
  rw [View.read_writes_eq_canon _ _ _ (coverA_first V c t h0)]
  unfold runFirst
  dsimp only
  sl_unfold_words
  rw [View.canon_cons_unit_zero (S := S1024x1) zeroOff2, View.readCov_unit_zero (S := S1024x1) _ zeroOff2]
  simp only [View.readAt_eq_ld, (hs1_0 t).read_unread, (hs1_1 t).read_unread, (hs1_2 t).read_unread, (hs1_3 t).read_unread,
    accPos_read_unread, accAll_read_unread, View.ld_unit_zero (S := S1024x256) zeroOff2, View.ld_unit_zero (S := S1024x1) zeroOff2]
  rfl

/-! ## A last tile: the accumulators as on a middle tile; each output is the one covering store of a read-back of
    the accumulator just stored -/

/-- The masked-sum accumulator after a last tile. -/
theorem accP_last_eq (c : Dev nD) (t : Fin cfg1.N) (h0 : ¬t.val % 8 = 0) (h1 : t.val % 8 = 7) (p0 p1 : Vec F S1024x1 .f32) :
    accP_last V c t h0 h1 p0 p1 = k1_pay1 (k1_pay6 (blk1 V c 0 t) (colTile (grid1.coords t) (blk1 V c 1 t)) (colLabels (grid1.coords t) (blk1 V c 3 t)) (blk1 V c 2 t) p0) := by
  unfold accP_last
  rw [View.read_writes_eq_canon _ _ _ (coverP_last V c t h0 h1 p0 p1)]
  unfold runLast
  dsimp only
  sl_unfold_words
  rw [View.canon_unit_zero zeroOff2]
  simp only [View.readAt_eq_ld, (hs1_0 t).read_unread, (hs1_1 t).read_unread, (hs1_2 t).read_unread, (hs1_3 t).read_unread,
    accPos_read_unread, accAll_read_unread, View.ld_unit_zero (S := S1024x256) zeroOff2, View.ld_unit_zero (S := S1024x1) zeroOff2]
  rfl

/-- The plain-sum accumulator after a last tile. -/
theorem accA_last_eq (c : Dev nD) (t : Fin cfg1.N) (h0 : ¬t.val % 8 = 0) (h1 : t.val % 8 = 7) (p0 p1 : Vec F S1024x1 .f32) :
    accA_last V c t h0 h1 p0 p1 = k1_pay2 (k1_pay5 (blk1 V c 0 t) (colTile (grid1.coords t) (blk1 V c 1 t))) p1 := by
  unfold accA_last
  rw [View.read_writes_eq_canon _ _ _ (coverA_last V c t h0 h1 p0 p1)]
  unfold runLast
  dsimp only
  sl_unfold_words
  rw [View.canon_unit_zero zeroOff2]
  simp only [View.readAt_eq_ld, (hs1_0 t).read_unread, (hs1_1 t).read_unread, (hs1_2 t).read_unread, (hs1_3 t).read_unread,
    accPos_read_unread, accAll_read_unread, View.ld_unit_zero (S := S1024x256) zeroOff2, View.ld_unit_zero (S := S1024x1) zeroOff2]
  rfl

/-- The first output after a last tile: the masked-sum accumulator as just stored (a load its one store covers),
    copied whole. -/
theorem out4_last_eq (c : Dev nD) (t : Fin cfg1.N) (h0 : ¬t.val % 8 = 0) (h1 : t.val % 8 = 7) (p0 p1 : Vec F S1024x1 .f32) :
    out4_last V c t h0 h1 p0 p1 = k1_pay1 (k1_pay6 (blk1 V c 0 t) (colTile (grid1.coords t) (blk1 V c 1 t)) (colLabels (grid1.coords t) (blk1 V c 3 t)) (blk1 V c 2 t) p0) := by
  unfold out4_last
  rw [View.read_writes_eq_canon _ _ _ (cover4_last V c t h0 h1 p0 p1)]
  unfold runLast
  dsimp only
  sl_unfold_words
  rw [View.canon_unit_zero zeroOff2, View.readCov_unit_zero (S := S1024x1) _ zeroOff2]
  simp only [View.readAt_eq_ld, (hs1_0 t).read_unread, (hs1_1 t).read_unread, (hs1_2 t).read_unread, (hs1_3 t).read_unread,
    accPos_read_unread, accAll_read_unread, View.ld_unit_zero (S := S1024x256) zeroOff2, View.ld_unit_zero (S := S1024x1) zeroOff2]
  rfl

/-- The second output after a last tile: the plain-sum accumulator as just stored, copied whole. -/
theorem out5_last_eq (c : Dev nD) (t : Fin cfg1.N) (h0 : ¬t.val % 8 = 0) (h1 : t.val % 8 = 7) (p0 p1 : Vec F S1024x1 .f32) :
    out5_last V c t h0 h1 p0 p1 = k1_pay2 (k1_pay5 (blk1 V c 0 t) (colTile (grid1.coords t) (blk1 V c 1 t))) p1 := by
  unfold out5_last
  rw [View.read_writes_eq_canon _ _ _ (cover5_last V c t h0 h1 p0 p1)]
  unfold runLast
  dsimp only
  sl_unfold_words
  rw [View.canon_unit_zero zeroOff2, View.readCov_unit_zero (S := S1024x1) _ zeroOff2]
  simp only [View.readAt_eq_ld, (hs1_0 t).read_unread, (hs1_1 t).read_unread, (hs1_2 t).read_unread, (hs1_3 t).read_unread,
    accPos_read_unread, accAll_read_unread, View.ld_unit_zero (S := S1024x256) zeroOff2, View.ld_unit_zero (S := S1024x1) zeroOff2]
  rfl

end

end Cert.KernelIdeal.Hand

end
-- ==== Proof.IBlocks.lean ====
/-
  The blocks the second pallas_call reads, at an index: which entries of the program's arguments each window's
  block at grid point t = 8·i + j holds. Rows 1024·i … of the first argument and of the labels (as a column) come
  from the windows themselves; columns 1024·j … of the normalised table and of the labels (as a row) are cut by the
  body out of windows that hold the whole array at every point.
-/
import proofs.«160394_j35003983463135_2_alg».proof.Proof.IFold
import proofs.«160394_j35003983463135_2_alg».proof.Proof.ICuts
import Idealize.ShloMosaic.Lib.ValueIdx
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rows and columns a grid point handles -/

/-- Row 1024·(t / 8) + p is a row of the 8192-row arrays. -/
theorem row_lt (t : Fin cfg1.N) (p : Fin 1024) : 1024 * (t.val / 8) + p.val < 8192 := by
  have hN : cfg1.N = 64 := N_1
  have := t.isLt; have := p.isLt; omega
/-- Column 1024·(t % 8) + q of the score matrix is a row of the 8192-row table. -/
theorem col_lt (t : Fin cfg1.N) (q : Fin 1024) : 1024 * (t.val % 8) + q.val < 8192 := by
  have := q.isLt; omega

/-! ## The arrays the second region finds -/

/-- The first argument is as launched: neither the first region nor the two reshapes write it. -/
theorem V2_main_arg0 (c : Dev nD) : V2 m ρ c main_arg0 = m ((c : Thread nD τ).loc main_arg0) :=
  calc W2 m ρ c (Proc.devRef .tc main_arg0)
    _ = W1 m ρ c (Proc.devRef .tc main_arg0) := StableHlo.after_of_writes_sub hostOps1 _ hostOps1_writes (r := main_arg0) (by decide)
    _ = W0 m ρ c (Proc.devRef .tc main_arg0) := W1_of_ne m ρ c main_arg0 (by decide)
    _ = m ((c : Thread nD τ).loc main_arg0) := rfl

/-- The normalised table is what the first region left: the two reshapes do not write it. -/
theorem V2_main_v0 (c : Dev nD) : V2 m ρ c main_v0 = W1 m ρ c (Proc.devRef .tc main_v0) :=
  StableHlo.after_of_writes_sub hostOps1 _ hostOps1_writes (r := main_v0) (by decide)

/-- The labels are as launched after the first region, which does not write them. -/
theorem W1_main_arg2 (c : Dev nD) : W1 m ρ c (Proc.devRef .tc main_arg2) = m ((c : Thread nD τ).loc main_arg2) :=
  (W1_of_ne m ρ c main_arg2 (by decide)).trans rfl

/-- The label column is the first reshape of the labels, [8192] to [8192, 1]. -/
theorem V2_main_v1 (c : Dev nD) :
    V2 m ρ c main_v1 = shapeCast S8192x1 (m ((c : Thread nD τ).loc main_arg2)) shapeCasts_S8192_S8192x1 := by
  rw [← W1_main_arg2 m ρ c]
  show StableHlo.after hostOps1 (W1 m ρ c) (Proc.devRef .tc main_v1) = _
  after_results
  rfl

/-- The label row is the second reshape of the labels, [8192] to [1, 8192]. -/
theorem V2_main_v2 (c : Dev nD) :
    V2 m ρ c main_v2 = shapeCast S1x8192 (m ((c : Thread nD τ).loc main_arg2)) shapeCasts_S8192_S1x8192 := by
  rw [← W1_main_arg2 m ρ c]
  show StableHlo.after hostOps1 (W1 m ρ c) (Proc.devRef .tc main_v2) = _
  after_results
  rfl

/-! ## The windows' block indices, decided once over the grid

Point t = 8·i + j. Windows 0 and 2 sit at row block i = t / 8; windows 1 and 3 hold their whole array at every point;
the grid's second coordinate is j = t % 8. -/

theorem idx1_0 : ∀ t : Fin cfg1.N, win1_0.index t (0 : Fin 2) = t.val / 8 ∧ win1_0.index t (1 : Fin 2) = 0 :=
  (by decide +kernel : ∀ t : Fin grid1.N, win1_0.index t (0 : Fin 2) = t.val / 8 ∧ win1_0.index t (1 : Fin 2) = 0)

theorem idx1_1 : ∀ t : Fin cfg1.N, win1_1.index t (0 : Fin 2) = 0 ∧ win1_1.index t (1 : Fin 2) = 0 ∧ (grid1.coords t 1).val = t.val % 8 :=
  (by decide +kernel : ∀ t : Fin grid1.N, win1_1.index t (0 : Fin 2) = 0 ∧ win1_1.index t (1 : Fin 2) = 0 ∧ (grid1.coords t 1).val = t.val % 8)

theorem idx1_2 : ∀ t : Fin cfg1.N, win1_2.index t (0 : Fin 2) = t.val / 8 ∧ win1_2.index t (1 : Fin 2) = 0 :=
  (by decide +kernel : ∀ t : Fin grid1.N, win1_2.index t (0 : Fin 2) = t.val / 8 ∧ win1_2.index t (1 : Fin 2) = 0)

theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

/-! ## The row blocks: windows 0 and 2 -/

/-- Window 0's block at point t holds rows 1024·(t / 8) … of the first argument: entry (p, k) of the block is entry
    (1024·(t / 8) + p, k) of the array (block index × block size + the coordinate inside the block, on each axis). -/
theorem rows_at (c : Dev nD) (t : Fin cfg1.N) (p : Fin 1024) (k : Fin 256) :
    blk1 (V2 m ρ) c 0 t (ix2 p k) = m ((c : Thread nD τ).loc main_arg0) (ix2 ⟨1024 * (t.val / 8) + p.val, row_lt t p⟩ k) := by
  unfold blk1
  rw [View.read_apply]
  show V2 m ρ c main_arg0 _ = _
  rw [V2_main_arg0]
  congr 1
  funext a
  apply Fin.ext
  match a with
  | ⟨0, _⟩ => show win1_0.index t 0 * 1024 + 1 * (p : Nat) = 1024 * (t.val / 8) + p.val; rw [(idx1_0 t).1]; omega
  | ⟨1, _⟩ => show win1_0.index t 1 * 256 + 1 * (k : Nat) = (k : Nat); rw [(idx1_0 t).2]; omega

/-- Window 2's block at point t holds the labels of rows 1024·(t / 8) …: entry (p, 0) of the block is entry
    (1024·(t / 8) + p, 0) of the label column, which the reshape reads at the same row-major position of the labels. -/
theorem rowLabels_at (c : Dev nD) (t : Fin cfg1.N) (p : Fin 1024) :
    blk1 (V2 m ρ) c 2 t (ix2 p 0) = m ((c : Thread nD τ).loc main_arg2) (ix1 ⟨1024 * (t.val / 8) + p.val, row_lt t p⟩) := by
  unfold blk1
  rw [View.read_apply]
  show V2 m ρ c main_v1 _ = _
  rw [V2_main_v1]
  refine shapeCast_apply (s := S8192) (t := S8192x1) _ _ _ _ ?_
  rw [Shape.rowMajor_val_two, Shape.rowMajor_val_one]
  show 1024 * (t.val / 8) + p.val = (win1_2.index t 0 * 1024 + 1 * (p : Nat)) * 1 + (win1_2.index t 1 * 1 + 1 * 0)
  rw [(idx1_2 t).1, (idx1_2 t).2]; omega

/-! ## The column blocks: the body's cuts of windows 1 and 3 -/

/-- Window 1's block is the whole normalised table at every point (block index (0, 0), block size the array's); the
    body's unit-stride cut at offset (1024·j, 0) reads entry (q, k) at row 1024·(t % 8) + q of the table the first
    region left. -/
theorem cols_at (c : Dev nD) (t : Fin cfg1.N) (q : Fin 1024) (k : Fin 256) :
    colTile (grid1.coords t) (blk1 (V2 m ρ) c 1 t) (ix2 q k)
      = W1 m ρ c (Proc.devRef .tc main_v0) (ix2 ⟨1024 * (t.val % 8) + q.val, col_lt t q⟩ k) := by
  unfold colTile blk1
  show ((cfg1.win 1).blk t).view.read (Elt F) (V2 m ρ c (Pipeline.arrRef spec1 1)) _ = _
  rw [View.read_apply]
  show V2 m ρ c main_v0 _ = _
  rw [V2_main_v0]
  congr 1
  funext a
  apply Fin.ext
  match a with
  | ⟨0, _⟩ =>
    show win1_1.index t 0 * 8192 + 1 * (k1_off1 (grid1.coords t) 0 + 1 * (q : Nat)) = 1024 * (t.val % 8) + q.val
    rw [k1_off1_eq, (idx1_1 t).1]
    show 0 * 8192 + 1 * (1024 * (grid1.coords t 1).val + 1 * (q : Nat)) = _
    rw [(idx1_1 t).2.2]; omega
  | ⟨1, _⟩ =>
    show win1_1.index t 1 * 256 + 1 * (k1_off1 (grid1.coords t) 1 + 1 * (k : Nat)) = (k : Nat)
    rw [k1_off1_eq, (idx1_1 t).2.1]
    show 0 * 256 + 1 * (0 + 1 * (k : Nat)) = _
    omega

/-- Window 3's block is the whole label row at every point; the body's cut at offset (0, 1024·j) reads entry (0, q)
    at position 1024·(t % 8) + q of the row, which the reshape reads at the same position of the labels. -/
theorem colLabels_at (c : Dev nD) (t : Fin cfg1.N) (q : Fin 1024) :
    colLabels (grid1.coords t) (blk1 (V2 m ρ) c 3 t) (ix2 0 q)
      = m ((c : Thread nD τ).loc main_arg2) (ix1 ⟨1024 * (t.val % 8) + q.val, col_lt t q⟩) := by
  unfold colLabels blk1
  show ((cfg1.win 3).blk t).view.read (Elt F) (V2 m ρ c (Pipeline.arrRef spec1 3)) _ = _
  rw [View.read_apply]
  show V2 m ρ c main_v2 _ = _
  rw [V2_main_v2]
  refine shapeCast_apply (s := S8192) (t := S1x8192) _ _ _ _ ?_
  rw [Shape.rowMajor_val_two, Shape.rowMajor_val_one]
  show 1024 * (t.val % 8) + q.val
    = (win1_3.index t 0 * 1 + 1 * (k1_off2 (grid1.coords t) 0 + 1 * 0)) * 8192
      + (win1_3.index t 1 * 8192 + 1 * (k1_off2 (grid1.coords t) 1 + 1 * (q : Nat)))
  rw [k1_off2_eq, (idx1_3 t).1, (idx1_3 t).2]
  show _ = (0 * 1 + 1 * (0 + 1 * 0)) * 8192 + (0 * 8192 + 1 * (1024 * (grid1.coords t 1).val + 1 * (q : Nat)))
  rw [(idx1_1 t).2.2]; omega

end Cert.KernelIdeal.Hand

end
-- ==== Proof.Spec.lean ====
/-
  The two scalar functions both programs are built from, on the extended reals.
  `unitRow row k`: entry `k` of a row of 256 numbers divided by max(√(Σ_j row_j²), ε), ε the float 1e-12 —
  the row scaled to unit Euclidean length (guarded against the zero row).
  `score ra rb`: exp(2 · ⟨ra, rb⟩), the exponentiated similarity of two rows at temperature 1/2.
-/
import Idealize.ShloMosaic.PureOps.Ideal
import Idealize.ShloMosaic.Lib.ValueIdx

noncomputable section

namespace Cert.Spec

open Idealize.ShloMosaic

/-- Entry `k` of the row divided by the larger of its Euclidean norm and ε. -/
def unitRow (row : Fin 256 → EReal) (k : Fin 256) : EReal :=
  Ideal.div (row k) (max (Ideal.sqrt (∑ j : Fin 256, row j * row j)) (Ideal.ofBits .f32 0x2B8CBCCC#32))

/-- The exponential of twice the inner product of two rows. -/
def score (ra rb : Fin 256 → EReal) : EReal :=
  Ideal.exp ((∑ k : Fin 256, ra k * rb k) * Ideal.ofBits .f32 0x40000000#32)

end Cert.Spec

end
-- ==== Proof.PayloadAt.lean ====
/-
  The kernel bodies' pure values read at an index, on the extended reals (every float operation exact, the format
  changes the identity).

  First kernel: the stored tile is the input tile with each row scaled to unit Euclidean length,
  x(p,d) / max(√(Σ_j x(p,j)²), ε)  (`k0_pay1_at`).
  Second kernel, per tile of 1024 rows by 1024 columns: the similarities e(p,q) = exp(2·Σ_k â(p,k)·b(q,k)), â the
  rows of `a` scaled to unit length (`k1_pay5_at`); the two running columns, one gaining the row sums of the
  similarities whose column label equals the row's label (`k1_pay6_at`), the other the row sums of all of them
  (`k1_pay2_at`); the columns' initial value zero (`k1_pay3_at`, `k1_pay4_at`), and a cast to the same shape,
  which changes nothing (`k1_pay1_eq`).

  The steps that are not pointwise: a sum along the lanes kept as a column (`laneSum_col_at`), a column broadcast
  along the lanes (`broadcastTo_col_at`), the tile product contracting the lanes of both operands (`matmul_at`),
  and a select on the equality of two integer words (`select_cmpi_eq`).
-/
import proofs.«160394_j35003983463135_2_alg».proof.Proof.Gen.KernelIdeal.Skeleton
import proofs.«160394_j35003983463135_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadAt

open Idealize.ShloMosaic Idealize.ShloMosaic.ValueIdx Cert.KernelIdeal Cert.KernelIdeal.Gen Cert.Spec
open scoped BigOperators

/-- A sum along the lanes of a `[1024, n]` vector, kept as a column `[1024, 1]`, read at row `p`: the sum of
    row `p` over its `n` lanes. -/
theorem laneSum_col_at {n : Nat} (src : FVec Ideal ⟨2, ![1024, n]⟩ .f32)
    (h : Shape.Reduces ⟨2, ![1024, n]⟩ [1] S1024) (hφ : FKind.Formats .f32)
    (hacc : (0x00000000#32 : BitVec 32) = 0x00000000#32) (hc : S1024.ShapeCasts S1024x1) (p : Fin 1024) (u : Fin 1) :
    shapeCast S1024x1 (multiReduction (F := Ideal) .add [1] S1024 src 0x00000000#32 h hφ hacc) hc (ix2 p u)
      = ∑ k : Fin n, src (ix2 p k) := by
  refine (shapeCast_apply _ hc (ix2 p u) (ix1 p) ?_).trans ?_
  · rw [Shape.rowMajor_val_one, Shape.rowMajor_val_two]
    show p.val = p.val * 1 + u.val
    omega
  · refine (Ideal.multiReduction_add_single src 0x00000000#32 h hφ hacc (ix1 p)).trans ?_
    refine Finset.sum_congr rfl fun k _ => congrArg src (funext fun a => Fin.ext ?_)
    match a with
    | ⟨0, _⟩ => rfl
    | ⟨1, _⟩ => rfl

/-- A shape cast to the same shape changes nothing. -/
theorem k1_pay1_eq (v : FVec Ideal S1024x1 .f32) : k1_pay1 (F := Ideal) v = v := by
  unfold k1_pay1
  exact shapeCast_self v _

/-- The zero column. -/
theorem k1_pay3_at (p : Fin 1024) : k1_pay3 (F := Ideal) (ix2 p 0) = 0 := by
  unfold k1_pay3
  rw [shapeCast_self]
  exact Ideal.ofBits_zero_f32

/-- The zero column. -/
theorem k1_pay4_at (p : Fin 1024) : k1_pay4 (F := Ideal) (ix2 p 0) = 0 := by
  unfold k1_pay4
  rw [shapeCast_self]
  exact Ideal.ofBits_zero_f32

/-- The running column plus the row sums of the tile. -/
theorem k1_pay2_at (e : FVec Ideal S1024x1024 .f32) (acc : Vec Ideal S1024x1 .f32) (p : Fin 1024) :
    k1_pay2 (F := Ideal) e acc (ix2 p 0) = acc (ix2 p 0) + ∑ q : Fin 1024, e (ix2 p q) := by
  unfold k1_pay2
  rw [shapeCast_self]
  exact congrArg (acc (ix2 p 0) + ·) (laneSum_col_at e _ _ _ _ p 0)

/-- A column `[1024, 1]` broadcast along the lanes to `[1024, n]` reads, at `(p, d)`, the column's row `p`. -/
theorem broadcastTo_col_at {α : Type} {n : Nat} (v : (⟨2, ![1024, 1]⟩ : Shape).Idx → α)
    (h : (⟨2, ![1024, 1]⟩ : Shape).Broadcasts ⟨2, ![1024, n]⟩) (p : Fin 1024) (d : Fin n) :
    broadcastTo ⟨2, ![1024, n]⟩ v h (ix2 p d) = v (ix2 p (0 : Fin 1)) := by
  refine broadcastTo_apply v h (ix2 p d) (ix2 p (0 : Fin 1)) fun ax => ?_
  match ax with
  | ⟨0, _⟩ =>
    show p.val = if (1024 : Nat) = 1 then 0 else p.val
    rw [if_neg (by decide)]
  | ⟨1, _⟩ => rfl

/-- The rows of `x` scaled to unit length, as both kernel bodies compute them: `x` over the lane-broadcast
    column max(√(row sums of x²), ε). -/
def normalised (x : FVec Ideal S1024x256 .f32) : FVec Ideal S1024x256 .f32 :=
  divf x (broadcastTo S1024x256 (maximumf (sqrt (shapeCast S1024x1
    (multiReduction (F := Ideal) .add [1] S1024 (mulf x x) 0x00000000#32 reduces_S1024x256_S1024 (.inl rfl) rfl)
    shapeCasts_S1024_S1024x1)) (broadcast S1024x1 (Scalar.ofBits (F := Ideal) .f32 0x2B8CBCCC#32))) broadcasts_S1024x1_S1024x256)

/-- Entry `(p, d)` of the normalised tile is entry `d` of row `p` scaled to unit length. -/
theorem normalised_at (x : FVec Ideal S1024x256 .f32) (p : Fin 1024) (d : Fin 256) :
    normalised x (ix2 p d) = unitRow (fun k => x (ix2 p k)) d := by
  unfold normalised unitRow
  rw [divf_apply, broadcastTo_col_at, maximumf_apply, broadcast_apply]
  show Ideal.div (x (ix2 p d)) (max (Ideal.sqrt (shapeCast S1024x1 _ shapeCasts_S1024_S1024x1 (ix2 p (0 : Fin 1)))) (Ideal.ofBits .f32 0x2B8CBCCC#32)) = _
  rw [laneSum_col_at]
  rfl

/-- The first kernel's stored tile: the rows of `x` scaled to unit length (the narrowing to bf16 is exact on
    extended reals). -/
theorem k0_pay1_at (x : Vec Ideal S1024x256 .f32) (p : Fin 1024) (d : Fin 256) :
    k0_pay1 (F := Ideal) x (ix2 p d) = unitRow (fun k => x (ix2 p k)) d :=
  normalised_at x p d

/-- An integer comparison at an index compares the elements. -/
theorem cmpi_apply {s : Shape} {w : Nat} (pr : CmpIPredicate) (x y : IVec s w) (i : s.Idx) :
    cmpi pr x y i = IntOp.cmpi pr (x i) (y i) := rfl

/-- A select on the bit "the two words are equal" is the `if` on their equality. -/
theorem select_cmpi_eq {α : Type} {w : Nat} (x y : BitVec w) (A B : α) :
    Scalar.select (IntOp.cmpi .eq x y) A B = if x = y then A else B := by
  unfold Scalar.select IntOp.cmpi
  by_cases h : x = y
  · subst h; simp
  · have hb : (x == y) = false := beq_eq_false_iff_ne.mpr h
    rw [if_neg h]
    show (if BitVec.ofBool (x == y) = 1#1 then A else B) = B
    rw [hb]
    exact if_neg (by decide)

/-- The tile product's left operand index keeps the output's row on its first axis … -/
theorem lhsIdx_row (i : S1024x1024.Idx) (c : dot_S1024x256_S1024x256_S1024x1024_1_1_0_0_n_n.contr.Idx) :
    (dot_S1024x256_S1024x256_S1024x1024_1_1_0_0_n_n.lhsIdx i c 0).val = (i 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl
/-- … and the contraction coordinate on its lanes. -/
theorem lhsIdx_lane (i : S1024x1024.Idx) (c : dot_S1024x256_S1024x256_S1024x1024_1_1_0_0_n_n.contr.Idx) :
    (dot_S1024x256_S1024x256_S1024x1024_1_1_0_0_n_n.lhsIdx i c 1).val = (c ⟨0, by decide⟩).val :=
  dot_S1024x256_S1024x256_S1024x1024_1_1_0_0_n_n.lhsIdx_val_of_single rfl i c
/-- The right operand index has the output's COLUMN on its first axis (the product contracts the lanes of both
    operands) … -/
theorem rhsIdx_row (i : S1024x1024.Idx) (c : dot_S1024x256_S1024x256_S1024x1024_1_1_0_0_n_n.contr.Idx) :
    (dot_S1024x256_S1024x256_S1024x1024_1_1_0_0_n_n.rhsIdx i c 0).val = (i 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl
/-- … and the contraction coordinate on its lanes. -/
theorem rhsIdx_lane (i : S1024x1024.Idx) (c : dot_S1024x256_S1024x256_S1024x1024_1_1_0_0_n_n.contr.Idx) :
    (dot_S1024x256_S1024x256_S1024x1024_1_1_0_0_n_n.rhsIdx i c 1).val = (c ⟨0, by decide⟩).val :=
  dot_S1024x256_S1024x256_S1024x1024_1_1_0_0_n_n.rhsIdx_val_of_single rfl i c

/-- The tile product into a zero accumulator, read at `(p, q)`: the inner product of row `p` of the left operand
    with row `q` of the right one. -/
theorem matmul_at {φ₁ φ₂ : FTy} (l : FVec Ideal S1024x256 φ₁) (r : FVec Ideal S1024x256 φ₂) (p q : Fin 1024) :
    matmul dot_S1024x256_S1024x256_S1024x1024_1_1_0_0_n_n none l r (constant (F := Ideal) S1024x1024 .f32 0x00000000#32) (ix2 p q)
      = ∑ k : Fin 256, l (ix2 p k) * r (ix2 q k) := by
  simp only [matmul]
  rw [Ideal.matmul_constant_zero_apply,
    ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q)
      ((contrEquiv1 dot_S1024x256_S1024x256_S1024x1024_1_1_0_0_n_n 256 rfl rfl).symm k) = ix2 p k :=
    funext fun a => Fin.ext (by
      match a with
      | ⟨0, _⟩ => exact lhsIdx_row _ _
      | ⟨1, _⟩ => exact (lhsIdx_lane _ _).trans hk)
  have er : dot_S1024x256_S1024x256_S1024x1024_1_1_0_0_n_n.rhsIdx (ix2 p q)
      ((contrEquiv1 dot_S1024x256_S1024x256_S1024x1024_1_1_0_0_n_n 256 rfl rfl).symm k) = ix2 q k :=
    funext fun a => Fin.ext (by
      match a with
      | ⟨0, _⟩ => exact rhsIdx_row _ _
      | ⟨1, _⟩ => exact (rhsIdx_lane _ _).trans hk)
  rw [el, er]

/-- The exponentiated similarities of the tile: entry `(p, q)` is exp(2·⟨unit row p of `a`, row q of `b`⟩). -/
theorem k1_pay5_at (a : Vec Ideal S1024x256 .f32) (b : Vec Ideal S1024x256 .bf16) (p q : Fin 1024) :
    k1_pay5 (F := Ideal) a b (ix2 p q) = score (unitRow (fun k => a (ix2 p k))) (fun k => b (ix2 q k)) := by
  unfold k1_pay5 score
  rw [shapeCast_self]
  have hm := matmul_at (φ₁ := .bf16) (φ₂ := .bf16) (normalised a) b p q
  refine (congrArg (fun t => Ideal.exp (t * Ideal.ofBits .f32 0x40000000#32)) hm).trans ?_
  refine congrArg (fun t => Ideal.exp (t * Ideal.ofBits .f32 0x40000000#32)) ?_
  exact Finset.sum_congr rfl fun k _ => congrArg (· * b (ix2 q k)) (normalised_at a p k)

/-- The running column plus, along each row of the tile, the similarities whose column label equals the row's. -/
theorem k1_pay6_at (a : Vec Ideal S1024x256 .f32) (b : Vec Ideal S1024x256 .bf16) (lc : Vec Ideal S1x1024 .i32)
    (lr : Vec Ideal S1024x1 .i32) (acc : Vec Ideal S1024x1 .f32) (p : Fin 1024) :
    k1_pay6 (F := Ideal) a b lc lr acc (ix2 p 0)
      = acc (ix2 p 0) + ∑ q : Fin 1024, (if lr (ix2 p 0) = lc (ix2 0 q) then k1_pay5 (F := Ideal) a b (ix2 p q) else 0) := by
  unfold k1_pay6
  rw [shapeCast_self, shapeCast_self]
  refine congrArg (acc (ix2 p 0) + ·) ?_
  refine (laneSum_col_at _ _ _ _ _ p 0).trans ?_
  refine Finset.sum_congr rfl fun q _ => ?_
  rw [select_apply, cmpi_apply, broadcastTo_col_at, broadcastTo_1b_ab_apply, broadcast_apply, select_cmpi_eq]
  show (if lr (ix2 p 0) = lc (ix2 0 q) then _ else Ideal.ofBits .f32 0x00000000#32) = _
  rw [Ideal.ofBits_zero_f32]

end Cert.KernelIdeal.PayloadAt

end
-- ==== Proof.ITable.lean ====
/-
  What the first pallas_call leaves in its output array, as ONE function of the launch memory.

  The grid has eight points; point `t` reads rows 1024·t … 1024·t + 1023 of the second argument and writes the same
  rows of the output, each row divided by max(√(Σ_d x(r,d)²), ε). So the output array ends holding, at row `r`,
  the normalised block of point `r / 1024` at its row `r % 1024` (`table`):

    * `table_apply`   — the table at row 1024·t + p is the normalised block of point `t` at row `p`;
    * `table_flushed` — what a symbolic point `t` writes back is its block of the table (the block's element
                        (p, d) sits in the array at (1024·t + p, d): block index times block size plus the
                        coordinate inside the block);
    * `table_final`   — every point writes back, and row `r` lies in the block of point `r / 1024`, so the blocks
                        cover the array and it ends holding the table;
    * `W1_table`      — the same, as the contents of the output buffer after the first region;
    * `blk0_arg1_at`  — the input block of point `t` at (p, k) is the second argument at (1024·t + p, k);
    * `table_at`      — on the extended reals the table at (r, d) is entry `d` of row `r` of the second argument
                        scaled to unit Euclidean length.

  No grid point and no row is enumerated: the two facts about the index maps are decided once over the eight points,
  and everything else is arithmetic of `r = 1024·(r / 1024) + r % 1024`.
-/
import proofs.«160394_j35003983463135_2_alg».proof.Proof.IFold
import proofs.«160394_j35003983463135_2_alg».proof.Proof.PayloadAt

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hN0 : cfg0.N = 8 := N_0

theorem pt_lt (t : Fin cfg0.N) : t.val < 8 := hN0 ▸ t.isLt

theorem hz : (![0, 0] : Fin 2 → Nat) = fun _ => 0 := funext fun a => by fin_cases a <;> rfl

/-- The grid point whose block holds row `r`. -/
def ptOf (r : Fin 8192) : Fin cfg0.N := ⟨r.val / 1024, by rw [hN0]; have := r.isLt; omega⟩

/-- The input block at a point, at the block's literal shape. -/
def inBlock (c : Dev nD) (t : Fin cfg0.N) : Vec F S1024x256 .f32 := blk0 (V0 m ρ) c 0 t

def table (c : Dev nD) : Buf (Elt F) ((c : Thread nD τ).loc main_v0) := fun idx =>
  k0_pay1 (inBlock m ρ c (ptOf (idx 0))) (ix2 ⟨(idx 0).val % 1024, Nat.mod_lt _ (by decide)⟩ (idx 1))

/-- The table at row `1024·t + p`: the normalised block of point `t` at row `p`. -/
theorem table_apply (c : Dev nD) (t : Fin cfg0.N) (idx : S8192x256.Idx) (p : Fin 1024) (d : Fin 256)
    (h0 : (idx 0).val = 1024 * t.val + p.val) (h1 : (idx 1).val = d.val) :
    table m ρ c idx = k0_pay1 (blk0 (V0 m ρ) c 0 t) (ix2 p d) := by
  unfold table inBlock
  have e1 : ptOf (idx 0) = t := Fin.ext (by show (idx 0).val / 1024 = t.val; have := p.isLt; omega)
  rw [e1]
  congr 1
  funext a
  match a with
  | ⟨0, _⟩ => exact Fin.ext (by show (idx 0).val % 1024 = p.val; have := p.isLt; omega)
  | ⟨1, _⟩ => exact Fin.ext h1

/-- The output window's block index at point `t`: block row `t`, block column 0. -/
theorem index0_1 : ∀ t : Fin cfg0.N, win0_1.index t 0 = t.val ∧ win0_1.index t 1 = 0 :=
  (by decide +kernel : ∀ t : Fin grid0.N, win0_1.index t 0 = t.val ∧ win0_1.index t 1 = 0)

theorem table_flushed (c : Dev nD) (t : Fin cfg0.N) :
    (dat0 (V0 m ρ) c).flushed 1 t = ((cfg0.win 1).blk t).view.read (Elt F) (table m ρ c) := by
  show (cfg0.win 1).cut (grid0.coords t) ((dat0 (V0 m ρ) c).after 1 t) = _
  rw [after0_1]
  unfold normedBlock
  rw [View.canon_unit_zero hz]
  simp only [View.ld_unit_zero (S := S1024x256) hz]
  funext y
  rw [View.read_apply]
  have hy0 : (y 0).val < 1024 := (y 0).isLt
  have hy1 : (y 1).val < 256 := (y 1).isLt
  show k0_pay1 (blk0 (V0 m ρ) c 0 t) _ = table m ρ c _
  rw [table_apply m ρ c t _ ⟨(y 0).val, hy0⟩ ⟨(y 1).val, hy1⟩ ?_ ?_]
  · congr 1
    funext a
    match a with
    | ⟨0, _⟩ => rfl
    | ⟨1, _⟩ => rfl
  · show win0_1.index t 0 * 1024 + 1 * (y 0).val = 1024 * t.val + (y 0).val
    rw [(index0_1 t).1]; omega
  · show win0_1.index t 1 * 256 + 1 * (y 1).val = (y 1).val
    rw [(index0_1 t).2]; omega

/-- Every row lies in the block of the point `row / 1024`, every point writes its block back, and what it
    writes is its block of the table: the output array ends holding the table. -/
theorem table_final (c : Dev nD) : (dat0 (V0 m ρ) c).arrAt 1 cfg0.N = table m ρ c :=
  (dat0 (V0 m ρ) c).arrAt_eq_of_cover 1 (table m ρ c) (fun t _ => table_flushed m ρ c t) fun i =>
    ⟨ptOf (i 0), flush0_1 _, by
      show i ∈ ((View.whole main_v0).slice (win0_1.rect (ptOf (i 0)))).set
      rw [View.set_slice_whole, Rect.mem_set_unit]
      intro a
      have h0 : (i 0 : Nat) < 8192 := (i 0).isLt
      have h1 : (i 1 : Nat) < 256 := (i 1).isLt
      match a with
      | ⟨0, _⟩ =>
        show win0_1.index (ptOf (i 0)) 0 * 1024 ≤ (i 0 : Nat) ∧ (i 0 : Nat) < win0_1.index (ptOf (i 0)) 0 * 1024 + 1024
        rw [(index0_1 _).1]
        show (i 0).val / 1024 * 1024 ≤ (i 0 : Nat) ∧ (i 0 : Nat) < (i 0).val / 1024 * 1024 + 1024
        omega
      | ⟨1, _⟩ =>
        show win0_1.index (ptOf (i 0)) 1 * 256 ≤ (i 1 : Nat) ∧ (i 1 : Nat) < win0_1.index (ptOf (i 0)) 1 * 256 + 256
        rw [(index0_1 _).2]
        omega⟩

theorem W1_table (c : Dev nD) : W1 m ρ c (Proc.devRef .tc main_v0) = table m ρ c :=
  (W1_arr m ρ c 1).trans (table_final m ρ c)

/-- The input window's block index at point `t`: block row `t`, block column 0. -/
theorem index0_0 : ∀ t : Fin cfg0.N, win0_0.index t 0 = t.val ∧ win0_0.index t 1 = 0 :=
  (by decide +kernel : ∀ t : Fin grid0.N, win0_0.index t 0 = t.val ∧ win0_0.index t 1 = 0)

/-- The input block at point `t`, at row `p`: row `1024·t + p` of the second argument as launched. -/
theorem blk0_arg1_at (c : Dev nD) (t : Fin cfg0.N) (p : Fin 1024) (k : Fin 256) :
    blk0 (V0 m ρ) c 0 t (ix2 p k)
      = m ((c : Thread nD τ).loc main_arg1) (ix2 ⟨1024 * t.val + p.val, by have := pt_lt t; have := p.isLt; omega⟩ k) := by
  unfold blk0
  rw [View.read_apply]
  show m ((c : Thread nD τ).loc main_arg1) _ = m ((c : Thread nD τ).loc main_arg1) _
  congr 1
  funext a
  apply Fin.ext
  match a with
  | ⟨0, _⟩ => show win0_0.index t 0 * 1024 + 1 * p.val = 1024 * t.val + p.val; rw [(index0_0 t).1]; omega
  | ⟨1, _⟩ => show win0_0.index t 1 * 256 + 1 * k.val = k.val; rw [(index0_0 t).2]; omega

/-- The table read at row `r`, lane `d`, on the extended reals: row `r` of the second argument scaled to unit length. -/
theorem table_at (m : (ℓ : Loc nD τ sig) → Buf (Elt Ideal) ℓ) (ρ : Dev nD → PrngReg) (c : Dev nD) (r : Fin 8192) (d : Fin 256) :
    W1 (F := Ideal) m ρ c (Proc.devRef .tc main_v0) (ix2 r d)
      = Cert.Spec.unitRow (fun k => m ((c : Thread nD τ).loc main_arg1) (ix2 r k)) d := by
  rw [W1_table]
  rw [table_apply m ρ c (ptOf r) (ix2 r d) ⟨r.val % 1024, Nat.mod_lt _ (by decide)⟩ d
    (by show r.val = 1024 * (r.val / 1024) + r.val % 1024; omega) rfl]
  rw [PayloadAt.k0_pay1_at]
  congr 1
  funext k
  rw [blk0_arg1_at]
  congr 1
  funext a
  apply Fin.ext
  match a with
  | ⟨0, _⟩ => show 1024 * (r.val / 1024) + r.val % 1024 = r.val; omega
  | ⟨1, _⟩ => rfl

end Cert.KernelIdeal.Hand

end
-- ==== Proof.LibBlockSum.lean ====
import Mathlib.Algebra.BigOperators.Fin
import Mathlib.Algebra.BigOperators.Group.Finset.Basic
import Mathlib.Logic.Equiv.Fin.Basic

/-!
# Sums taken block by block, and running totals

A sum over T·R entries is the sum over T blocks of the sums over the R entries of each block, entry r of block t being
entry R·t + r. A running total that starts at the first block's sum and adds one block's sum per step is, after
step n, the sum of the first n + 1 blocks' sums.
-/

open Finset

namespace Cert.LibBlockSum

variable {M : Type*} [AddCommMonoid M]

/-- A sum over T·R entries, taken block by block. -/
theorem sum_by_blocks (T R : ℕ) (f : Fin (T * R) → M) :
    ∑ i, f i = ∑ t : Fin T, ∑ r : Fin R, f (finProdFinEquiv (t, r)) := by
  rw [← Fintype.sum_prod_type']
  exact (Equiv.sum_comp finProdFinEquiv f).symm

/-- Entry r of block t is entry R·t + r. -/
theorem block_entry_val {T R : ℕ} (t : Fin T) (r : Fin R) : (finProdFinEquiv (t, r)).val = r.val + R * t.val := rfl

/-- The same with the entries numbered 0 … N − 1 for N = T·R: entry r of block t is entry R·t + r. -/
theorem sum_by_blocks_of_eq (T R N : ℕ) (hN : T * R = N) (f : Fin N → M) :
    ∑ i, f i = ∑ t : Fin T, ∑ r : Fin R, f ⟨R * t.val + r.val, by
      have h := (finProdFinEquiv (t, r)).isLt
      rw [show (finProdFinEquiv (t, r)).val = r.val + R * t.val from rfl] at h
      omega⟩ := by
  subst hN
  rw [sum_by_blocks T R f]
  refine Finset.sum_congr rfl fun t _ => Finset.sum_congr rfl fun r _ => congrArg f (Fin.ext ?_)
  exact Nat.add_comm _ _

/-- A running total after step n is the sum of the first n + 1 terms. -/
theorem running_total (s g : ℕ → M) (h0 : s 0 = g 0) (hs : ∀ n, s (n + 1) = s n + g (n + 1)) (n : ℕ) :
    s n = ∑ k ∈ range (n + 1), g k := by
  induction n with
  | zero => rw [h0, Finset.sum_range_one]
  | succ n ih => rw [hs, ih, Finset.sum_range_succ _ (n + 1)]

/-- The same, for a recurrence that is only known below a bound N. -/
theorem running_total_below (N : ℕ) (s g : ℕ → M) (h0 : s 0 = g 0) (hs : ∀ n, n + 1 < N → s (n + 1) = s n + g (n + 1))
    (n : ℕ) (hn : n < N) : s n = ∑ k ∈ range (n + 1), g k := by
  induction n with
  | zero => rw [h0, Finset.sum_range_one]
  | succ n ih => rw [hs n hn, ih (by omega), Finset.sum_range_succ _ (n + 1)]

end Cert.LibBlockSum
-- ==== Proof.IValue.lean ====
/-
  What the second pallas_call leaves in its two outputs, at the ideal instance. Row r of the first output is the sum
  over all 8192 columns c with the label of r of exp(2·⟨â_r, b̂_c⟩), row r of the second the same sum over every
  column, where â, b̂ are the two tables with each row scaled to unit length: the accumulators hold, after the tile
  in column block j of a row block, the sums over the column blocks 0 … j (by induction on the grid point), and the
  last tile of each row block copies them to the outputs, whose blocks tile the two arrays.
-/
import proofs.«160394_j35003983463135_2_alg».proof.Proof.IFold
import proofs.«160394_j35003983463135_2_alg».proof.Proof.IPieces
import proofs.«160394_j35003983463135_2_alg».proof.Proof.IBlocks
import proofs.«160394_j35003983463135_2_alg».proof.Proof.ITable
import proofs.«160394_j35003983463135_2_alg».proof.Proof.PayloadAt
import proofs.«160394_j35003983463135_2_alg».proof.Proof.LibBlockSum
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Spec Cert.KernelIdeal.PayloadAt

/-! ## Sums over the column blocks seen so far -/

section Prefix
variable (g : Fin 8 → EReal)

theorem prefix_zero : (∑ jj : Fin 8, if jj.val ≤ 0 then g jj else 0) = g 0 := by
  simp [Fin.sum_univ_eight]

theorem prefix_succ (j : ℕ) (hj : j + 1 < 8) :
    (∑ jj : Fin 8, if jj.val ≤ j + 1 then g jj else 0) = (∑ jj : Fin 8, if jj.val ≤ j then g jj else 0) + g ⟨j + 1, hj⟩ := by
  have hj' : j < 7 := by omega
  interval_cases j <;> simp [Fin.sum_univ_eight, add_assoc]

theorem prefix_full : (∑ jj : Fin 8, if jj.val ≤ 7 then g jj else 0) = ∑ jj : Fin 8, g jj :=
  Finset.sum_congr rfl fun jj _ => if_pos (by have := jj.isLt; omega)

end Prefix

variable (m : (ℓ : Loc nD τ sig) → Buf (Elt Ideal) ℓ) (ρ : Dev nD → PrngReg) (c : Dev nD)

/-- exp(2·⟨â_r, b̂_col⟩): row `r` of the first argument against row `col` of the second, both scaled to unit length. -/
def sim (r col : Fin 8192) : EReal :=
  score (unitRow (fun k => m ((c : Thread nD τ).loc main_arg0) (ix2 r k))) (unitRow (fun k => m ((c : Thread nD τ).loc main_arg1) (ix2 col k)))

/-- The same where `col` carries the label of `r`, zero elsewhere. -/
def simPos (r col : Fin 8192) : EReal :=
  if m ((c : Thread nD τ).loc main_arg2) (ix1 r) = m ((c : Thread nD τ).loc main_arg2) (ix1 col) then sim m c r col else 0

/-- Row `p` of the row block grid point `t` works on, and column `q` of column block `jj`. -/
def rowOf (t : Fin cfg1.N) (p : Fin 1024) : Fin 8192 :=
  ⟨1024 * (t.val / 8) + p.val, by have := t.isLt; have hN : cfg1.N = 64 := N_1; have := p.isLt; omega⟩
def colOf (jj : Fin 8) (q : Fin 1024) : Fin 8192 := ⟨1024 * jj.val + q.val, by have := jj.isLt; have := q.isLt; omega⟩

theorem rowOf_succ (n : ℕ) (hn : n + 1 < cfg1.N) (h : ¬(n + 1) % 8 = 0) (p : Fin 1024) :
    rowOf ⟨n + 1, hn⟩ p = rowOf ⟨n, Nat.lt_of_succ_lt hn⟩ p := by
  apply Fin.ext; show 1024 * ((n + 1) / 8) + p.val = 1024 * (n / 8) + p.val
  have : (n + 1) / 8 = n / 8 := by omega
  rw [this]

/-- One tile's contribution to the two sums of row `p`: the sums over the tile's 1024 columns. -/
def tilePos (t : Fin cfg1.N) (p : Fin 1024) (jj : Fin 8) : EReal := ∑ q : Fin 1024, simPos m c (rowOf t p) (colOf jj q)
def tileAll (t : Fin cfg1.N) (p : Fin 1024) (jj : Fin 8) : EReal := ∑ q : Fin 1024, sim m c (rowOf t p) (colOf jj q)

/-- The column block of grid point `t`. -/
def colBlock (t : Fin cfg1.N) : Fin 8 := ⟨t.val % 8, Nat.mod_lt _ (by decide)⟩

/-- The exponentiated similarities of the tile at `t`, entry (p, q). -/
theorem tile_sim (t : Fin cfg1.N) (p q : Fin 1024) :
    k1_pay5 (F := Ideal) (blk1 (V2 m ρ) c 0 t) (colTile (grid1.coords t) (blk1 (V2 m ρ) c 1 t)) (ix2 p q)
      = sim m c (rowOf t p) (colOf (colBlock t) q) := by
  rw [k1_pay5_at]
  unfold sim
  congr 1
  · funext k; congr 1; funext k'; exact rows_at m ρ c t p k'
  · funext k; rw [cols_at m ρ c t q k]; exact table_at m ρ c _ k

/-- The masked lane sum of the tile at `t`, row p. -/
theorem tile_pos (t : Fin cfg1.N) (p : Fin 1024) :
    (∑ q : Fin 1024, (if blk1 (V2 m ρ) c 2 t (ix2 p 0) = colLabels (grid1.coords t) (blk1 (V2 m ρ) c 3 t) (ix2 0 q)
        then k1_pay5 (F := Ideal) (blk1 (V2 m ρ) c 0 t) (colTile (grid1.coords t) (blk1 (V2 m ρ) c 1 t)) (ix2 p q) else 0))
      = tilePos m c t p (colBlock t) := by
  refine Finset.sum_congr rfl fun q _ => ?_
  rw [rowLabels_at m ρ c t p, colLabels_at m ρ c t q, tile_sim]
  rfl

theorem tile_all (t : Fin cfg1.N) (p : Fin 1024) :
    (∑ q : Fin 1024, k1_pay5 (F := Ideal) (blk1 (V2 m ρ) c 0 t) (colTile (grid1.coords t) (blk1 (V2 m ρ) c 1 t)) (ix2 p q))
      = tileAll m c t p (colBlock t) :=
  Finset.sum_congr rfl fun q _ => tile_sim m ρ c t p q

/-! ## One point's effect on the accumulators -/

theorem first_val (t : Fin cfg1.N) (h0 : t.val % 8 = 0) (p0 p1 : Vec Ideal S1024x1 .f32) (p : Fin 1024) :
    (tileStep (V2 m ρ) c t p0 p1).2.2.1 (ix2 p 0) = tilePos m c t p (colBlock t)
    ∧ (tileStep (V2 m ρ) c t p0 p1).2.2.2 (ix2 p 0) = tileAll m c t p (colBlock t) := by
  rw [tileStep_first (V2 m ρ) c t p0 p1 h0]
  dsimp only
  rw [accP_first_eq, accA_first_eq, k1_pay1_eq, k1_pay6_at, k1_pay2_at, k1_pay3_at, k1_pay4_at, zero_add, zero_add, tile_pos, tile_all]
  exact ⟨rfl, rfl⟩

theorem step_val (t : Fin cfg1.N) (h0 : ¬t.val % 8 = 0) (p0 p1 : Vec Ideal S1024x1 .f32) (p : Fin 1024) :
    (tileStep (V2 m ρ) c t p0 p1).2.2.1 (ix2 p 0) = p0 (ix2 p 0) + tilePos m c t p (colBlock t)
    ∧ (tileStep (V2 m ρ) c t p0 p1).2.2.2 (ix2 p 0) = p1 (ix2 p 0) + tileAll m c t p (colBlock t) := by
  by_cases h1 : t.val % 8 = 7
  · rw [tileStep_last (V2 m ρ) c t p0 p1 h0 h1]
    dsimp only
    rw [accP_last_eq, accA_last_eq, k1_pay1_eq, k1_pay6_at, k1_pay2_at, tile_pos, tile_all]
    exact ⟨rfl, rfl⟩
  · rw [tileStep_mid (V2 m ρ) c t p0 p1 h0 h1]
    dsimp only
    rw [accP_mid_eq, accA_mid_eq, k1_pay1_eq, k1_pay6_at, k1_pay2_at, tile_pos, tile_all]
    exact ⟨rfl, rfl⟩

/-- On a last tile each output's staging buffer holds what its accumulator holds. -/
theorem out_eq_acc (t : Fin cfg1.N) (h0 : ¬t.val % 8 = 0) (h7 : t.val % 8 = 7) (p0 p1 : Vec Ideal S1024x1 .f32) :
    (tileStep (V2 m ρ) c t p0 p1).1 = (tileStep (V2 m ρ) c t p0 p1).2.2.1
    ∧ (tileStep (V2 m ρ) c t p0 p1).2.1 = (tileStep (V2 m ρ) c t p0 p1).2.2.2 := by
  rw [tileStep_last (V2 m ρ) c t p0 p1 h0 h7]
  dsimp only
  rw [out4_last_eq, accP_last_eq, out5_last_eq, accA_last_eq]
  exact ⟨rfl, rfl⟩

/-! ## The accumulators after every point -/

theorem acc_eq : ∀ (n : ℕ) (hn : n < cfg1.N) (p : Fin 1024),
    (outsAt1 (V2 m ρ) c n hn).2.2.1 (ix2 p 0) = ∑ jj : Fin 8, (if jj.val ≤ n % 8 then tilePos m c ⟨n, hn⟩ p jj else 0)
    ∧ (outsAt1 (V2 m ρ) c n hn).2.2.2 (ix2 p 0) = ∑ jj : Fin 8, (if jj.val ≤ n % 8 then tileAll m c ⟨n, hn⟩ p jj else 0)
  | 0, hn, p => by
    have hf := first_val m ρ c ⟨0, hn⟩ rfl unread4 unread5 p
    have hcb : colBlock (⟨0, hn⟩ : Fin cfg1.N) = 0 := rfl
    rw [hcb] at hf
    show (tileStep (V2 m ρ) c ⟨0, hn⟩ unread4 unread5).2.2.1 (ix2 p 0) = _ ∧ (tileStep (V2 m ρ) c ⟨0, hn⟩ unread4 unread5).2.2.2 (ix2 p 0) = _
    rw [hf.1, hf.2]
    exact ⟨(prefix_zero _).symm, (prefix_zero _).symm⟩
  | n + 1, hn, p => by
    have ih := acc_eq n (Nat.lt_of_succ_lt hn) p
    show (tileStep (V2 m ρ) c ⟨n + 1, hn⟩ (outsAt1 (V2 m ρ) c n (Nat.lt_of_succ_lt hn)).2.2.1 (outsAt1 (V2 m ρ) c n (Nat.lt_of_succ_lt hn)).2.2.2).2.2.1 (ix2 p 0) = _
      ∧ (tileStep (V2 m ρ) c ⟨n + 1, hn⟩ (outsAt1 (V2 m ρ) c n (Nat.lt_of_succ_lt hn)).2.2.1 (outsAt1 (V2 m ρ) c n (Nat.lt_of_succ_lt hn)).2.2.2).2.2.2 (ix2 p 0) = _
    by_cases h0 : (n + 1) % 8 = 0
    · have hf := first_val m ρ c ⟨n + 1, hn⟩ h0 (outsAt1 (V2 m ρ) c n (Nat.lt_of_succ_lt hn)).2.2.1 (outsAt1 (V2 m ρ) c n (Nat.lt_of_succ_lt hn)).2.2.2 p
      have hcb : colBlock (⟨n + 1, hn⟩ : Fin cfg1.N) = 0 := Fin.ext h0
      rw [hcb] at hf
      rw [hf.1, hf.2, h0]
      exact ⟨(prefix_zero _).symm, (prefix_zero _).symm⟩
    · have hs := step_val m ρ c ⟨n + 1, hn⟩ h0 (outsAt1 (V2 m ρ) c n (Nat.lt_of_succ_lt hn)).2.2.1 (outsAt1 (V2 m ρ) c n (Nat.lt_of_succ_lt hn)).2.2.2 p
      rw [hs.1, hs.2, ih.1, ih.2]
      have hmod : (n + 1) % 8 = n % 8 + 1 := by omega
      have hlt : n % 8 + 1 < 8 := by omega
      have hcb : colBlock (⟨n + 1, hn⟩ : Fin cfg1.N) = ⟨n % 8 + 1, hlt⟩ := Fin.ext hmod
      have hrow : ∀ jj, tilePos m c ⟨n, Nat.lt_of_succ_lt hn⟩ p jj = tilePos m c ⟨n + 1, hn⟩ p jj := fun jj => by
        unfold tilePos; rw [rowOf_succ n hn h0 p]
      have hrow' : ∀ jj, tileAll m c ⟨n, Nat.lt_of_succ_lt hn⟩ p jj = tileAll m c ⟨n + 1, hn⟩ p jj := fun jj => by
        unfold tileAll; rw [rowOf_succ n hn h0 p]
      simp only [hrow, hrow', hcb, hmod]
      exact ⟨(prefix_succ _ (n % 8) hlt).symm, (prefix_succ _ (n % 8) hlt).symm⟩

/-! ## The row sums over all 8192 columns -/

def posSum (r : Fin 8192) : EReal := ∑ col : Fin 8192, simPos m c r col
def allSum (r : Fin 8192) : EReal := ∑ col : Fin 8192, sim m c r col

theorem blocks_pos (t : Fin cfg1.N) (p : Fin 1024) : (∑ jj : Fin 8, tilePos m c t p jj) = posSum m c (rowOf t p) :=
  (Cert.LibBlockSum.sum_by_blocks_of_eq 8 1024 8192 rfl (fun col => simPos m c (rowOf t p) col)).symm
theorem blocks_all (t : Fin cfg1.N) (p : Fin 1024) : (∑ jj : Fin 8, tileAll m c t p jj) = allSum m c (rowOf t p) :=
  (Cert.LibBlockSum.sum_by_blocks_of_eq 8 1024 8192 rfl (fun col => sim m c (rowOf t p) col)).symm

/-- On the last tile of a row block the outputs' staging buffers hold the full row sums. -/
theorem out_last (t : Fin cfg1.N) (h7 : t.val % 8 = 7) (p : Fin 1024) :
    (outsAt1 (V2 m ρ) c t.val t.isLt).1 (ix2 p 0) = posSum m c (rowOf t p)
    ∧ (outsAt1 (V2 m ρ) c t.val t.isLt).2.1 (ix2 p 0) = allSum m c (rowOf t p) := by
  have hz : t.val ≠ 0 := by omega
  have h0 : ¬t.val % 8 = 0 := by omega
  have e := outsAt1_pos (V2 m ρ) c t hz
  have ho := out_eq_acc m ρ c t h0 h7 (outsAt1 (V2 m ρ) c (t.val - 1) (Nat.lt_of_le_of_lt (Nat.sub_le _ _) t.isLt)).2.2.1 (outsAt1 (V2 m ρ) c (t.val - 1) (Nat.lt_of_le_of_lt (Nat.sub_le _ _) t.isLt)).2.2.2
  rw [← e] at ho
  rw [ho.1, ho.2]
  have ha := acc_eq m ρ c t.val t.isLt p
  rw [ha.1, ha.2, h7, prefix_full, prefix_full]
  exact ⟨blocks_pos m c t p, blocks_all m c t p⟩

end Cert.KernelIdeal.Hand

end
-- ==== Proof.IOutputs.lean ====
/-
  From the second pallas_call's output blocks to its two whole output arrays. Each output array has 8192 rows and one
  column; its window's block at grid point t = 8·i + j is the rows 1024·i … 1024·i + 1023, stored and written back on
  the last tile of the row block (j = 7) only. Given what the output's staging buffer holds on every such tile — row p
  of the block at point t is P (1024·(t / 8) + p) — the array after the region holds P at every row: the write-backs
  of the eight last tiles write blocks of the one array P, and together those eight blocks cover all 8192 rows (row r
  lies in the block of the point 8·(r / 1024) + 7).
-/
import proofs.«160394_j35003983463135_2_alg».proof.Proof.IFold
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## Output 0 (window 4) -/

/-- The block index of window 4 at point t = 8·i + j: row block i = t / 8, column block 0. Decided once over the grid. -/
theorem idx1_4 : ∀ t : Fin cfg1.N, win1_4.index t (0 : Fin 2) = t.val / 8 ∧ win1_4.index t (1 : Fin 2) = 0 :=
  (by decide +kernel : ∀ t : Fin grid1.N, win1_4.index t (0 : Fin 2) = t.val / 8 ∧ win1_4.index t (1 : Fin 2) = 0)

/-- What a write-back of window 4 writes is its block of the one array `P`: the write-back happens on a last tile
    (t % 8 = 7) only; the block is not cut, so what is written is the staging buffer's contents; element (p, 0) of the
    block at point t sits in the array at row (t / 8)·1024 + 1·p, where the hypothesis says the buffer holds `P` of
    that row. -/
theorem flushed4 (P : Fin 8192 → Elt F .f32)
    (H : ∀ (t : Fin cfg1.N) (h7 : t.val % 8 = 7) (p : Fin 1024), (outsAt1 (V2 m ρ) c t.val t.isLt).1 (ix2 p 0) = P ⟨1024 * (t.val / 8) + p.val, by have := t.isLt; have hN : cfg1.N = 64 := N_1; have := p.isLt; omega⟩)
    (t : Fin cfg1.N) (hf : (cfg1.win 4).flush t = true) :
    (dat1 (V2 m ρ) c).flushed 4 t = ((cfg1.win 4).blk t).view.read (Elt F) (fun idx => P ⟨(idx 0).val, (idx 0).isLt⟩) := by
  have h7 := (flush1_4 t).mp hf
  show (cfg1.win 4).cut (grid1.coords t) ((dat1 (V2 m ρ) c).after 4 t) = _
  rw [after1_4]
  funext y
  rw [View.read_apply]
  show (outsAt1 (V2 m ρ) c t.val t.isLt).1 (win1_4.xinj (grid1.coords t) y) = _
  -- an index of the [1024, 1] block is (its row, 0): the second extent is 1
  have e : win1_4.xinj (grid1.coords t) y = ix2 (n0 := 1024) (n1 := 1) ⟨(y 0).val, (y 0).isLt⟩ 0 := by
    funext a
    match a with
    | ⟨0, _⟩ => rfl
    | ⟨1, _⟩ => exact Fin.ext (by have h : (y 1).val < 1 := (y 1).isLt; show (y 1).val = 0; omega)
  rw [e, H t h7]
  refine congrArg P (Fin.ext ?_)
  show 1024 * (t.val / 8) + (y 0).val = win1_4.index t 0 * 1024 + 1 * (y 0).val
  rw [(idx1_4 t).1]; omega

/-- Every index (r, 0) of the [8192, 1] array lies in the block of a point that writes back: the last tile
    t = 8·(r / 1024) + 7 of row block r / 1024, whose block is the rows 1024·(r / 1024) … 1024·(r / 1024) + 1023 and the
    one column. -/
theorem cover4 (idx : S8192x1.Idx) :
    ∃ t : Fin cfg1.N, (cfg1.win 4).flush t = true ∧ idx ∈ ((cfg1.win 4).blk t).view.set := by
  have hN : cfg1.N = 64 := N_1
  have h0 : (idx 0).val < 8192 := (idx 0).isLt
  have h1 : (idx 1).val < 1 := (idx 1).isLt
  obtain ⟨t, ht⟩ : ∃ t : Fin cfg1.N, t.val = 8 * ((idx 0).val / 1024) + 7 :=
    ⟨⟨8 * ((idx 0).val / 1024) + 7, by omega⟩, rfl⟩
  refine ⟨t, (flush1_4 t).mpr (by omega), ?_⟩
  show idx ∈ ((View.whole main_v3_0).slice (win1_4.rect t)).set
  rw [View.set_slice_whole, Rect.mem_set_unit]
  intro a
  match a with
  | ⟨0, _⟩ =>
    show win1_4.index t 0 * win1_4.size 0 ≤ (idx 0 : Nat) ∧ (idx 0 : Nat) < win1_4.index t 0 * win1_4.size 0 + win1_4.xsize (grid1.coords t) 0
    rw [(idx1_4 t).1, show win1_4.size 0 = 1024 from rfl, show win1_4.xsize (grid1.coords t) 0 = 1024 from rfl]
    omega
  | ⟨1, _⟩ =>
    show win1_4.index t 1 * win1_4.size 1 ≤ (idx 1 : Nat) ∧ (idx 1 : Nat) < win1_4.index t 1 * win1_4.size 1 + win1_4.xsize (grid1.coords t) 1
    rw [(idx1_4 t).2, show win1_4.size 1 = 1 from rfl, show win1_4.xsize (grid1.coords t) 1 = 1 from rfl]
    omega

/-- So the array ends holding `P` at every row: every write-back writes a block of `P`, and the blocks written back
    cover the array. -/
theorem out4_array (P : Fin 8192 → Elt F .f32)
    (H : ∀ (t : Fin cfg1.N) (h7 : t.val % 8 = 7) (p : Fin 1024), (outsAt1 (V2 m ρ) c t.val t.isLt).1 (ix2 p 0) = P ⟨1024 * (t.val / 8) + p.val, by have := t.isLt; have hN : cfg1.N = 64 := N_1; have := p.isLt; omega⟩) :
    W3 m ρ c (Proc.devRef .tc main_v3_0) = fun idx => P ⟨(idx 0).val, (idx 0).isLt⟩ :=
  (W3_arr m ρ c 4).trans
    ((dat1 (V2 m ρ) c).arrAt_eq_of_cover 4 _ (flushed4 m ρ c P H) fun idx => cover4 idx)

/-! ## Output 1 (window 5) -/

/-- The block index of window 5 at point t = 8·i + j: row block i = t / 8, column block 0. Decided once over the grid. -/
theorem idx1_5 : ∀ t : Fin cfg1.N, win1_5.index t (0 : Fin 2) = t.val / 8 ∧ win1_5.index t (1 : Fin 2) = 0 :=
  (by decide +kernel : ∀ t : Fin grid1.N, win1_5.index t (0 : Fin 2) = t.val / 8 ∧ win1_5.index t (1 : Fin 2) = 0)

/-- What a write-back of window 5 writes is its block of the one array `P`: the write-back happens on a last tile
    (t % 8 = 7) only; the block is not cut, so what is written is the staging buffer's contents; element (p, 0) of the
    block at point t sits in the array at row (t / 8)·1024 + 1·p, where the hypothesis says the buffer holds `P` of
    that row. -/
theorem flushed5 (P : Fin 8192 → Elt F .f32)
    (H : ∀ (t : Fin cfg1.N) (h7 : t.val % 8 = 7) (p : Fin 1024), (outsAt1 (V2 m ρ) c t.val t.isLt).2.1 (ix2 p 0) = P ⟨1024 * (t.val / 8) + p.val, by have := t.isLt; have hN : cfg1.N = 64 := N_1; have := p.isLt; omega⟩)
    (t : Fin cfg1.N) (hf : (cfg1.win 5).flush t = true) :
    (dat1 (V2 m ρ) c).flushed 5 t = ((cfg1.win 5).blk t).view.read (Elt F) (fun idx => P ⟨(idx 0).val, (idx 0).isLt⟩) := by
  have h7 := (flush1_5 t).mp hf
  show (cfg1.win 5).cut (grid1.coords t) ((dat1 (V2 m ρ) c).after 5 t) = _
  rw [after1_5]
  funext y
  rw [View.read_apply]
  show (outsAt1 (V2 m ρ) c t.val t.isLt).2.1 (win1_5.xinj (grid1.coords t) y) = _
  -- an index of the [1024, 1] block is (its row, 0): the second extent is 1
  have e : win1_5.xinj (grid1.coords t) y = ix2 (n0 := 1024) (n1 := 1) ⟨(y 0).val, (y 0).isLt⟩ 0 := by
    funext a
    match a with
    | ⟨0, _⟩ => rfl
    | ⟨1, _⟩ => exact Fin.ext (by have h : (y 1).val < 1 := (y 1).isLt; show (y 1).val = 0; omega)
  rw [e, H t h7]
  refine congrArg P (Fin.ext ?_)
  show 1024 * (t.val / 8) + (y 0).val = win1_5.index t 0 * 1024 + 1 * (y 0).val
  rw [(idx1_5 t).1]; omega

/-- Every index (r, 0) of the [8192, 1] array lies in the block of a point that writes back: the last tile
    t = 8·(r / 1024) + 7 of row block r / 1024, whose block is the rows 1024·(r / 1024) … 1024·(r / 1024) + 1023 and the
    one column. -/
theorem cover5 (idx : S8192x1.Idx) :
    ∃ t : Fin cfg1.N, (cfg1.win 5).flush t = true ∧ idx ∈ ((cfg1.win 5).blk t).view.set := by
  have hN : cfg1.N = 64 := N_1
  have h0 : (idx 0).val < 8192 := (idx 0).isLt
  have h1 : (idx 1).val < 1 := (idx 1).isLt
  obtain ⟨t, ht⟩ : ∃ t : Fin cfg1.N, t.val = 8 * ((idx 0).val / 1024) + 7 :=
    ⟨⟨8 * ((idx 0).val / 1024) + 7, by omega⟩, rfl⟩
  refine ⟨t, (flush1_5 t).mpr (by omega), ?_⟩
  show idx ∈ ((View.whole main_v3_1).slice (win1_5.rect t)).set
  rw [View.set_slice_whole, Rect.mem_set_unit]
  intro a
  match a with
  | ⟨0, _⟩ =>
    show win1_5.index t 0 * win1_5.size 0 ≤ (idx 0 : Nat) ∧ (idx 0 : Nat) < win1_5.index t 0 * win1_5.size 0 + win1_5.xsize (grid1.coords t) 0
    rw [(idx1_5 t).1, show win1_5.size 0 = 1024 from rfl, show win1_5.xsize (grid1.coords t) 0 = 1024 from rfl]
    omega
  | ⟨1, _⟩ =>
    show win1_5.index t 1 * win1_5.size 1 ≤ (idx 1 : Nat) ∧ (idx 1 : Nat) < win1_5.index t 1 * win1_5.size 1 + win1_5.xsize (grid1.coords t) 1
    rw [(idx1_5 t).2, show win1_5.size 1 = 1 from rfl, show win1_5.xsize (grid1.coords t) 1 = 1 from rfl]
    omega

/-- So the array ends holding `P` at every row: every write-back writes a block of `P`, and the blocks written back
    cover the array. -/
theorem out5_array (P : Fin 8192 → Elt F .f32)
    (H : ∀ (t : Fin cfg1.N) (h7 : t.val % 8 = 7) (p : Fin 1024), (outsAt1 (V2 m ρ) c t.val t.isLt).2.1 (ix2 p 0) = P ⟨1024 * (t.val / 8) + p.val, by have := t.isLt; have hN : cfg1.N = 64 := N_1; have := p.isLt; omega⟩) :
    W3 m ρ c (Proc.devRef .tc main_v3_1) = fun idx => P ⟨(idx 0).val, (idx 0).isLt⟩ :=
  (W3_arr m ρ c 5).trans
    ((dat1 (V2 m ρ) c).arrAt_eq_of_cover 5 _ (flushed5 m ρ c P H) fun idx => cover5 idx)

end Cert.KernelIdeal.Hand

end
-- ==== Proof.RefAt.lean ====
/-
  The reference program read at an index, at the ideal values (every float an extended real, every operation exact).
  Each row of the two inputs is scaled to unit Euclidean length (`unitRow`); entry (r, c) of the similarity matrix is
  the exponential of twice the inner product of unit row r of the first input and unit row c of the second (`score`);
  the two row sums the loss is built from are the sum over c of the scores of the same-label pairs, and the sum of all.
-/
import proofs.«160394_j35003983463135_2_alg».proof.Proof.Gen.ReferenceIdeal.Read
import proofs.«160394_j35003983463135_2_alg».proof.Proof.Spec
import Idealize.ShloMosaic.Lib.ValueIdx
import Idealize.ShloMosaic.PureOps.Ideal.Laws

noncomputable section

namespace Cert.ReferenceIdeal.RefAt

open Idealize.ShloMosaic Idealize.ShloMosaic.ValueIdx Cert.ReferenceIdeal Cert.ReferenceIdeal.Read Cert.Spec

/-- Row `r`, column `k` of an input is what the row sum of squares reads at `k`, whatever column the quotient is read at. -/
theorem idx_row0 (r : Fin 8192) (d k : Fin 256) :
    idx_main_v1 (idx_main_v2 (idx_main_v6 (ix2 r d))) k = ix2 r k :=
  funext fun a => Fin.ext (by match a with | ⟨0, _⟩ => rfl | ⟨1, _⟩ => rfl)

theorem unit0_at (x0 : (⟨S8192x256, .f32⟩ : BufTy).Contents (Elt Ideal)) (r : Fin 8192) (d : Fin 256) :
    val_main_v7 (F := Ideal) x0 (ix2 r d) = unitRow (fun k => x0 (ix2 r k)) d := by
  rw [val_main_v7_apply, val_main_v6_apply, val_main_v5_apply, val_main_v3_apply, val_main_v2_apply, val_main_v1_apply,
    val_main_v4_apply, val_main_cst_0_apply, val_main_cst_apply]
  simp only [val_main_v0_apply, idx_row0, Ideal.hostDivf_def, Ideal.maximumf_def, Ideal.hostUnary_sqrt_def, Ideal.mulf_def,
    Ideal.ofBits_def, Ideal.ofBits_zero_f32, zero_add]
  rfl

/-- Row `c`, column `k` of the second input, likewise. -/
theorem idx_row1 (c : Fin 8192) (d k : Fin 256) :
    idx_main_v9 (idx_main_v10 (idx_main_v14 (ix2 c d))) k = ix2 c k :=
  funext fun a => Fin.ext (by match a with | ⟨0, _⟩ => rfl | ⟨1, _⟩ => rfl)

theorem unit1_at (x1 : (⟨S8192x256, .f32⟩ : BufTy).Contents (Elt Ideal)) (c : Fin 8192) (d : Fin 256) :
    val_main_v15 (F := Ideal) x1 (ix2 c d) = unitRow (fun k => x1 (ix2 c k)) d := by
  rw [val_main_v15_apply, val_main_v14_apply, val_main_v13_apply, val_main_v11_apply, val_main_v10_apply, val_main_v9_apply,
    val_main_v12_apply, val_main_cst_2_apply, val_main_cst_1_apply]
  simp only [val_main_v8_apply, idx_row1, Ideal.hostDivf_def, Ideal.maximumf_def, Ideal.hostUnary_sqrt_def, Ideal.mulf_def,
    Ideal.ofBits_def, Ideal.ofBits_zero_f32, zero_add]
  rfl

/-! ## The two float words of the temperature -/

/-- The word `0x3F000000` denotes one half. -/
theorem ofBits_half : Ideal.ofBits .f32 0x3F000000#32 = ((0.5 : ℝ) : EReal) := by
  simp [Ideal.ofBits, Ideal.ieee, -EReal.coe_mul]; norm_num

/-- The word `0x40000000` denotes two. -/
theorem ofBits_two : Ideal.ofBits .f32 0x40000000#32 = ((2 : ℝ) : EReal) := by
  simp [Ideal.ofBits, Ideal.ieee, -EReal.coe_mul]; norm_num

/-- Dividing by one half is multiplying by two, on every extended real (the divisor is a nonzero real, so the quotient is the
    product with its reciprocal). -/
theorem div_half (x : EReal) : Ideal.div x (Ideal.ofBits .f32 0x3F000000#32) = x * Ideal.ofBits .f32 0x40000000#32 := by
  rw [ofBits_half, ofBits_two, Ideal.div_coe (by norm_num)]
  norm_num

/-! ## The similarity matrix -/

/-- The left operand of the product at `(r, c)`, contraction index `k`, is read at `(r, k)`. -/
theorem idx_lhs (r c : Fin 8192) (k : Fin 256) : lidx_main_v17 (ix2 r c) k = ix2 r k :=
  funext fun a => Fin.ext (by match a with | ⟨0, _⟩ => rfl | ⟨1, _⟩ => rfl)

/-- The right operand is the transpose of the second input's unit rows: at `(r, c)`, contraction index `k`, it is read at `(c, k)`. -/
theorem idx_rhs (r c : Fin 8192) (k : Fin 256) : idx_main_v16 (ridx_main_v17 (ix2 r c) k) = ix2 c k :=
  funext fun a => Fin.ext (by match a with | ⟨0, _⟩ => rfl | ⟨1, _⟩ => rfl)

theorem score_at (x0 x1 : (⟨S8192x256, .f32⟩ : BufTy).Contents (Elt Ideal)) (r c : Fin 8192) :
    val_main_v20 (F := Ideal) x0 x1 (ix2 r c)
      = score (unitRow (fun k => x0 (ix2 r k))) (unitRow (fun k => x1 (ix2 c k))) := by
  rw [val_main_v20_apply, val_main_v19_apply, val_main_v17_apply, val_main_v18_apply, val_main_cst_3_apply]
  simp only [val_main_v16_apply, idx_lhs, idx_rhs, unit0_at, unit1_at, Ideal.hostDivf_def, Ideal.hostUnary_exp_def, Ideal.ofBits_def]
  rw [div_half]
  rfl

/-! ## The two row sums -/

/-- Row `r` of the similarity matrix, summed over the column `c`. -/
theorem idx_sum_all (r c : Fin 8192) : idx_main_v29 (ix1 r) c = ix2 r c :=
  funext fun a => Fin.ext (by match a with | ⟨0, _⟩ => rfl | ⟨1, _⟩ => rfl)

theorem idx_sum_pos (r c : Fin 8192) : idx_main_v28 (ix1 r) c = ix2 r c :=
  funext fun a => Fin.ext (by match a with | ⟨0, _⟩ => rfl | ⟨1, _⟩ => rfl)

theorem all_at (x0 x1 : (⟨S8192x256, .f32⟩ : BufTy).Contents (Elt Ideal)) (r : Fin 8192) :
    val_main_v29 (F := Ideal) x0 x1 (ix1 r)
      = ∑ c : Fin 8192, score (unitRow (fun k => x0 (ix2 r k))) (unitRow (fun k => x1 (ix2 c k))) := by
  rw [val_main_v29_apply, val_main_cst_5_apply]
  simp only [idx_sum_all, score_at, Ideal.ofBits_def, Ideal.ofBits_zero_f32, zero_add]

/-- The label of row `r`, broadcast along the columns, read at `(r, c)`. -/
theorem idx_lab_row (r c : Fin 8192) : idx_main_v21 (idx_main_v23 (ix2 r c)) = ix1 r :=
  funext fun a => Fin.ext (by match a with | ⟨0, _⟩ => rfl)

/-- The label of column `c`, broadcast along the rows, read at `(r, c)`. -/
theorem idx_lab_col (r c : Fin 8192) : idx_main_v22 (idx_main_v24 (ix2 r c)) = ix1 c :=
  funext fun a => Fin.ext (by match a with | ⟨0, _⟩ => rfl)

/-- A number times the equality bit of two words read as a float (the bit 1 is the real 1, the bit 0 the real 0) is the number
    where the words agree and zero elsewhere: `x * 1 = x` and `x * 0 = 0` on every extended real, the infinities included. -/
theorem mul_eq_bit (x : EReal) (a b : BitVec 32) :
    x * FloatOps.uitofp (F := Ideal) .f32 (IntOp.cmpi .eq a b) = if a = b then x else 0 := by
  by_cases h : a = b
  · subst h
    rw [if_pos rfl]
    show x * (((IntOp.cmpi .eq a a).toNat : ℝ) : EReal) = x
    simp [IntOp.cmpi]
  · rw [if_neg h]
    show x * (((IntOp.cmpi .eq a b).toNat : ℝ) : EReal) = 0
    simp [IntOp.cmpi, h]

theorem pos_at (x0 x1 : (⟨S8192x256, .f32⟩ : BufTy).Contents (Elt Ideal)) (x2 : (⟨S8192, .i32⟩ : BufTy).Contents (Elt Ideal))
    (r : Fin 8192) :
    val_main_v28 (F := Ideal) x0 x1 x2 (ix1 r)
      = ∑ c : Fin 8192, (if x2 (ix1 r) = x2 (ix1 c)
          then score (unitRow (fun k => x0 (ix2 r k))) (unitRow (fun k => x1 (ix2 c k))) else 0) := by
  rw [val_main_v28_apply, val_main_cst_4_apply]
  simp only [val_main_v27_apply, val_main_v26_apply, val_main_v25_apply, val_main_v23_apply, val_main_v24_apply,
    val_main_v21_apply, val_main_v22_apply, idx_sum_pos, idx_lab_row, idx_lab_col, score_at, Ideal.mulf_def, mul_eq_bit,
    Ideal.ofBits_def, Ideal.ofBits_zero_f32, zero_add]

end Cert.ReferenceIdeal.RefAt

end
-- ==== Proof.IFinal.lean ====
/-
  The result of both programs as one function of the arguments: −(Σ_r log(pos_r / all_r)) / 8192, where pos_r and
  all_r are the row sums of the exponentiated similarities (over the columns carrying r's label, and over all).
  The kernel's nine closing host operations and the reference's last five compute this same chain of their two
  length-8192 vectors; the vectors agree entry by entry.
-/
import proofs.«160394_j35003983463135_2_alg».proof.Proof.IValue
import proofs.«160394_j35003983463135_2_alg».proof.Proof.IOutputs
import proofs.«160394_j35003983463135_2_alg».proof.Proof.RefAt
import proofs.«160394_j35003983463135_2_alg».proof.Proof.Gen.ReferenceIdeal.Read
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Spec

variable (m : (ℓ : Loc nD τ sig) → Buf (Elt Ideal) ℓ) (ρ : Dev nD → PrngReg) (c : Dev nD)

/-- The closing chain: the quotient entry by entry, its logarithm, the sum over the 8192 rows, divided by 8192, negated. -/
def lossOf (p a : FVec Ideal S8192 .f32) : FVec Ideal S_ .f32 :=
  Host.negf (Host.divf (Host.reduceAdd (Host.log (Host.divf p a)) (constant (F := Ideal) S_ .f32 0x00000000#32) reducesTo_S8192_S_d0 h_S_)
    (constant (F := Ideal) S_ .f32 0x46000000#32))

/-- The two row-sum vectors. -/
def posVec : FVec Ideal S8192 .f32 := fun i => posSum m c ⟨(i 0).val, (i 0).isLt⟩
def allVec : FVec Ideal S8192 .f32 := fun i => allSum m c ⟨(i 0).val, (i 0).isLt⟩

/-- An 8192-by-1 column cast to a length-8192 vector reads the column's row. -/
theorem col_to_vec {α : Type} (x : S8192x1.Idx → α) (h : S8192x1.ShapeCasts S8192) (j : S8192.Idx) :
    shapeCast S8192 x h j = x (ix2 (⟨(j 0).val, (j 0).isLt⟩ : Fin 8192) (0 : Fin 1)) :=
  shapeCast_apply x h j _ (by
    rw [Shape.rowMajor_val_two, Shape.rowMajor_val_one]
    show (j 0).val * 1 + 0 = (j 0).val
    omega)

/-- The kernel's result buffer at the return. -/
theorem result_eq : W4 m ρ c (Proc.devRef .tc main_v10) = lossOf (posVec m c) (allVec m c) := by
  have e4 := out4_array m ρ c (posSum m c) (fun t h7 p => (out_last m ρ c t h7 p).1)
  have e5 := out5_array m ρ c (allSum m c) (fun t h7 p => (out_last m ρ c t h7 p).2)
  have hp : shapeCast S8192 (W3 m ρ c (Proc.devRef .tc main_v3_0)) shapeCasts_S8192x1_S8192 = posVec m c := funext fun j => by
    rw [col_to_vec, e4]; rfl
  have ha : shapeCast S8192 (W3 m ρ c (Proc.devRef .tc main_v3_1)) shapeCasts_S8192x1_S8192 = allVec m c := funext fun j => by
    rw [col_to_vec, e5]; rfl
  show StableHlo.after hostOps2 _ (Proc.devRef .tc main_v10) = _
  after_results
  show lossOf (shapeCast S8192 (W3 m ρ c (Proc.devRef .tc main_v3_0)) shapeCasts_S8192x1_S8192)
    (shapeCast S8192 (W3 m ρ c (Proc.devRef .tc main_v3_1)) shapeCasts_S8192x1_S8192) = _
  rw [hp, ha]

/-- The reference's result, of the same arguments. -/
theorem ref_loss :
    Cert.ReferenceIdeal.Read.val_main_v34 (F := Ideal) (m ((c : Thread nD τ).loc main_arg0)) (m ((c : Thread nD τ).loc main_arg1)) (m ((c : Thread nD τ).loc main_arg2))
      = lossOf (posVec m c) (allVec m c) := by
  have hp : Cert.ReferenceIdeal.Read.val_main_v28 (F := Ideal) (m ((c : Thread nD τ).loc main_arg0)) (m ((c : Thread nD τ).loc main_arg1)) (m ((c : Thread nD τ).loc main_arg2)) = posVec m c := funext fun i => by
    obtain ⟨r, rfl⟩ : ∃ r : Fin 8192, i = ix1 r := ⟨i 0, eq_ix1 i⟩
    rw [Cert.ReferenceIdeal.RefAt.pos_at]; rfl
  have ha : Cert.ReferenceIdeal.Read.val_main_v29 (F := Ideal) (m ((c : Thread nD τ).loc main_arg0)) (m ((c : Thread nD τ).loc main_arg1)) = allVec m c := funext fun i => by
    obtain ⟨r, rfl⟩ : ∃ r : Fin 8192, i = ix1 r := ⟨i 0, eq_ix1 i⟩
    rw [Cert.ReferenceIdeal.RefAt.all_at]; rfl
  show lossOf (Cert.ReferenceIdeal.Read.val_main_v28 (F := Ideal) _ _ _) (Cert.ReferenceIdeal.Read.val_main_v29 (F := Ideal) _ _) = _
  rw [hp, ha]

end Cert.KernelIdeal.Hand

end
-- ==== Proof.lean ====
/-
  The claim: the contrastive loss kernel against its reference. Both scale every row of the two 8192×256 tables to
  unit Euclidean length (guarded by ε), form exp(2·⟨â_r, b̂_c⟩) for all pairs of rows, sum each row once over the
  columns carrying the row's label and once over all columns, and return −mean_r log(pos_r / all_r). The kernel
  builds the row sums tile by tile (1024 × 1024) in two accumulators and multiplies by 2 where the reference divides
  by 1/2; it selects where the reference multiplies by the 0/1 mask: on the extended reals these agree exactly, and a
  sum taken block by block is the sum. The three frames are the runs of the three programs with the results dropped;
  the idealization rewrote nothing.
-/
import proofs.«160394_j35003983463135_2_alg».proof.Defs
import proofs.«160394_j35003983463135_2_alg».proof.Proof.Gen.Kernel
import proofs.«160394_j35003983463135_2_alg».proof.Proof.Gen.KernelIdeal
import proofs.«160394_j35003983463135_2_alg».proof.Proof.Gen.ReferenceIdeal
import proofs.«160394_j35003983463135_2_alg».proof.Proof.Gen.ReferenceIdeal.Run
import proofs.«160394_j35003983463135_2_alg».proof.Proof.Gen.ReferenceIdeal.Read
import proofs.«160394_j35003983463135_2_alg».proof.Proof.Gen.Pre_finite_inputs
import proofs.«160394_j35003983463135_2_alg».proof.Proof.BRun
import proofs.«160394_j35003983463135_2_alg».proof.Proof.IRun
import proofs.«160394_j35003983463135_2_alg».proof.Proof.IFinal

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Hand in
/-- Both programs end with the loss of the same two row-sum vectors of arguments that agree. -/
theorem algebraic : Cert.algebraic_KernelIdeal_ReferenceIdeal := by
  intro m ρ m' ρ' _ hagree
  refine ⟨fun c => lossOf (posVec m c) (allVec m c), ?_, ?_⟩
  · exact (θ_run Cert.KernelIdeal.defs _ _).mono (fun _ h c =>
      ⟨(h c _ (mem_uc main_v10 (by decide))).trans (result_eq m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩) (run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v34_eq, (hagree c).1, (hagree c).2.1, (hagree c).2.2]
    exact ref_loss m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
